-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩
abbrev S256x128 : Shape := ⟨2, ![256, 128]⟩
abbrev S128x256 : Shape := ⟨2, ![128, 256]⟩
abbrev S64x128 : Shape := ⟨2, ![64, 128]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg5 : FVec F S64x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : IVec S_ 32) (main_arg3 : FVec F S256x128 .f32) (main_arg4 : FVec F S128x256 .f32) (main_arg5 : FVec F S64x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S10000x128 : Shape := ⟨2, ![10000, 128]⟩
abbrev S10000x10000 : Shape := ⟨2, ![10000, 10000]⟩
abbrev S_ : Shape := ⟨0, ![]⟩
abbrev S256x128 : Shape := ⟨2, ![256, 128]⟩
abbrev S128x256 : Shape := ⟨2, ![128, 256]⟩
abbrev S64x128 : Shape := ⟨2, ![64, 128]⟩
abbrev S1x1 : Shape := ⟨2, ![1, 1]⟩
abbrev S10000x256 : Shape := ⟨2, ![10000, 256]⟩
abbrev S200x10000 : Shape := ⟨2, ![200, 10000]⟩
abbrev S200x128 : Shape := ⟨2, ![200, 128]⟩
abbrev S200x256 : Shape := ⟨2, ![200, 256]⟩
abbrev S128x64 : Shape := ⟨2, ![128, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S64x10000 : Shape := ⟨2, ![64, 10000]⟩

abbrev nBuf : Space → Nat
  | .hbm => 17
  | .vmem => 27
  | .smem => 3
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S_, .i32⟩
  | .hbm, ⟨3, _⟩ => ⟨S256x128, .f32⟩
  | .hbm, ⟨4, _⟩ => ⟨S128x256, .f32⟩
  | .hbm, ⟨5, _⟩ => ⟨S64x128, .f32⟩
  | .hbm, ⟨6, _⟩ => ⟨S1x1, .i32⟩
  | .hbm, ⟨7, _⟩ => ⟨S128x256, .f32⟩
  | .hbm, ⟨8, _⟩ => ⟨S10000x256, .bf16⟩
  | .hbm, ⟨9, _⟩ => ⟨S256x128, .f32⟩
  | .hbm, ⟨10, _⟩ => ⟨S10000x128, .bf16⟩
  | .hbm, ⟨11, _⟩ => ⟨S10000x10000, .bf16⟩
  | .hbm, ⟨12, _⟩ => ⟨S128x64, .f32⟩
  | .hbm, ⟨13, _⟩ => ⟨S10000x64, .bf16⟩
  | .hbm, ⟨14, _⟩ => ⟨S10000x64, .f32⟩
  | .hbm, ⟨15, _⟩ => ⟨S64x10000, .f32⟩
  | .hbm, ⟨16, _⟩ => ⟨S10000x10000, .f32⟩
  | .local _ .vmem, ⟨0, _⟩ => ⟨S10000x128, .f32⟩
  | .local _ .vmem, ⟨1, _⟩ => ⟨S128x256, .f32⟩
  | .local _ .vmem, ⟨2, _⟩ => ⟨S10000x256, .bf16⟩
  | .local _ .vmem, ⟨3, _⟩ => ⟨S200x10000, .f32⟩
  | .local _ .vmem, ⟨4, _⟩ => ⟨S200x10000, .f32⟩
  | .local _ .vmem, ⟨5, _⟩ => ⟨S10000x256, .bf16⟩
  | .local _ .vmem, ⟨6, _⟩ => ⟨S256x128, .f32⟩
  | .local _ .vmem, ⟨7, _⟩ => ⟨S200x128, .bf16⟩
  | .local _ .vmem, ⟨8, _⟩ => ⟨S200x128, .bf16⟩
  | .local _ .vmem, ⟨9, _⟩ => ⟨S200x10000, .bf16⟩
  | .local _ .vmem, ⟨10, _⟩ => ⟨S200x10000, .bf16⟩
  | .local _ .vmem, ⟨11, _⟩ => ⟨S400x10000, .bf16⟩
  | .local _ .vmem, ⟨12, _⟩ => ⟨S400x10000, .bf16⟩
  | .local _ .vmem, ⟨13, _⟩ => ⟨S10000x128, .bf16⟩
  | .local _ .vmem, ⟨14, _⟩ => ⟨S128x64, .f32⟩
  | .local _ .vmem, ⟨15, _⟩ => ⟨S400x64, .bf16⟩
  | .local _ .vmem, ⟨16, _⟩ => ⟨S400x64, .bf16⟩
  | .local _ .vmem, ⟨17, _⟩ => ⟨S400x10000, .bf16⟩
  | .local _ .vmem, ⟨18, _⟩ => ⟨S400x10000, .bf16⟩
  | .local _ .vmem, ⟨19, _⟩ => ⟨S10000x64, .bf16⟩
  | .local _ .vmem, ⟨20, _⟩ => ⟨S400x64, .f32⟩
  | .local _ .vmem, ⟨21, _⟩ => ⟨S400x64, .f32⟩
  | .local _ .vmem, ⟨22, _⟩ => ⟨S400x64, .f32⟩
  | .local _ .vmem, ⟨23, _⟩ => ⟨S400x64, .f32⟩
  | .local _ .vmem, ⟨24, _⟩ => ⟨S64x10000, .f32⟩
  | .local _ .vmem, ⟨25, _⟩ => ⟨S400x10000, .f32⟩
  | .local _ .vmem, ⟨26, _⟩ => ⟨S400x10000, .f32⟩
  | .local _ .smem, ⟨0, _⟩ => ⟨S1x1, .i32⟩
  | .local _ .smem, ⟨1, _⟩ => ⟨S1x1, .i32⟩
  | .local _ .smem, ⟨2, _⟩ => ⟨S1x1, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := .none

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S400x10000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S_S1x1 : S_.ShapeCasts S1x1
  transposes_S256x128_S128x256_1_0 : S256x128.Transposes [1, 0] S128x256
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x1_S1x1_0_0 : ∀ a, (![0, 0] : Fin 2 → Nat) a + S1x1.size a ≤ S1x1.size a
  numel1_S1x1 : S1x1.numel = 1
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  transposes_S128x256_S256x128_1_0 : S128x256.Transposes [1, 0] S256x128
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  transposes_S64x128_S128x64_1_0 : S64x128.Transposes [1, 0] S128x64
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  transposes_S10000x64_S64x10000_1_0 : S10000x64.Transposes [1, 0] S64x10000
  shapeCasts_S400x64_S400x64 : S400x64.ShapeCasts S400x64
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  dot_S10000x128_S128x256_S10000x256_1_0_0_1_n_n_wf : DotDims.WF S10000x128 S128x256 S10000x256 [1] [0] [0] [1] [] []
  dot_S200x10000_S10000x256_S200x256_1_0_0_1_n_n_wf : DotDims.WF S200x10000 S10000x256 S200x256 [1] [0] [0] [1] [] []
  dot_S200x256_S256x128_S200x128_1_0_0_1_n_n_wf : DotDims.WF S200x256 S256x128 S200x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x10000_S400x10000_1_0_0_1_n_n_wf : DotDims.WF S400x64 S64x10000 S400x10000 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .i32 = 32 ∨ (Rect.block (s := S1x1) S1x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .bf16 = 32 ∨ (Rect.block (s := S10000x128) S200x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .i32 = 32 ∨ (Rect.block (s := S1x1) S1x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x10000.size a ≤ S10000x10000.size a
  hwx2_1 : ∀ i : grid2.Coords, EltTy.bits .bf16 = 32 ∨ (Rect.block (s := S10000x10000) S400x10000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .bf16 = 32 ∨ (Rect.block (s := S10000x64) S400x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x64.size a ≤ S10000x64.size a
  hwx3_2 : ∀ i : grid3.Coords, EltTy.bits .f32 = 32 ∨ (Rect.block (s := S10000x64) S400x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x64.size a ≤ S10000x64.size a
  hwx4_0 : ∀ i : grid4.Coords, EltTy.bits .f32 = 32 ∨ (Rect.block (s := S10000x64) S400x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10000.size a ≤ S64x10000.size a
  hwx4_1 : ∀ i : grid4.Coords, EltTy.bits .f32 = 32 ∨ (Rect.block (s := S64x10000) S64x10000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x10000_S400x10000_1_0_0_1_n_n : DotDims S400x64 S64x10000 S400x10000 where
  lhsContracting := [1]
  rhsContracting := [0]
  lhsNonContracting := [0]
  rhsNonContracting := [1]
  lhsBatch := []
  rhsBatch := []
  wf := dot_S400x64_S64x10000_S400x10000_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x1.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1x1.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S400x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v4_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S400x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v7) S400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S64x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩
abbrev S256x128 : Shape := ⟨2, ![256, 128]⟩
abbrev S128x256 : Shape := ⟨2, ![128, 256]⟩
abbrev S64x128 : Shape := ⟨2, ![64, 128]⟩
abbrev S10000x256 : Shape := ⟨2, ![10000, 256]⟩
abbrev S128x64 : Shape := ⟨2, ![128, 64]⟩
abbrev S10000x64 : Shape := ⟨2, ![10000, 64]⟩
abbrev S64x10000 : Shape := ⟨2, ![64, 10000]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S_, .i32⟩
  | .hbm, ⟨3, _⟩ => ⟨S256x128, .f32⟩
  | .hbm, ⟨4, _⟩ => ⟨S128x256, .f32⟩
  | .hbm, ⟨5, _⟩ => ⟨S64x128, .f32⟩
  | .hbm, ⟨6, _⟩ => ⟨S_, .i32⟩
  | .hbm, ⟨7, _⟩ => ⟨S_, .i1⟩
  | .hbm, ⟨8, _⟩ => ⟨S128x256, .f32⟩
  | .hbm, ⟨9, _⟩ => ⟨S10000x256, .f32⟩
  | .hbm, ⟨10, _⟩ => ⟨S_, .f32⟩
  | .hbm, ⟨11, _⟩ => ⟨S_, .f32⟩
  | .hbm, ⟨12, _⟩ => ⟨S10000x256, .f32⟩
  | .hbm, ⟨13, _⟩ => ⟨S10000x256, .i1⟩
  | .hbm, ⟨14, _⟩ => ⟨S_, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x256, .f32⟩
  | .hbm, ⟨20, _⟩ => ⟨S256x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S10000x128, .f32⟩
  | .hbm, ⟨25, _⟩ => ⟨S10000x128, .i1⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S128x64, .f32⟩
  | .hbm, ⟨33, _⟩ => ⟨S10000x64, .f32⟩
  | .hbm, ⟨34, _⟩ => ⟨S10000x64, .f32⟩
  | .hbm, ⟨35, _⟩ => ⟨S64x10000, .f32⟩
  | .hbm, ⟨36, _⟩ => ⟨S10000x10000, .f32⟩
  | .hbm, ⟨37, _⟩ => ⟨S10000x10000, .f32⟩
  | .hbm, ⟨38, _⟩ => ⟨S10000x10000, .f32⟩
  | .hbm, ⟨39, _⟩ => ⟨S_, .f32⟩
  | .hbm, ⟨40, _⟩ => ⟨S10000x10000, .f32⟩
  | .hbm, ⟨41, _⟩ => ⟨S10000x10000, .f32⟩
  | .hbm, ⟨42, _⟩ => ⟨S_, .f32⟩
  | .hbm, ⟨43, _⟩ => ⟨S10000x10000, .f32⟩
  | .hbm, ⟨44, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_call2_cst : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]

class Facts₀ : Prop where
  transposes_S256x128_S128x256_1_0 : S256x128.Transposes [1, 0] S128x256
  bcast_S_S10000x256 : S_.BroadcastsInDim S10000x256 (![] : Fin 0 → Fin S10000x256.rank)
  transposes_S128x256_S256x128_1_0 : S128x256.Transposes [1, 0] S256x128
  bcast_S_S10000x128 : S_.BroadcastsInDim S10000x128 (![] : Fin 0 → Fin S10000x128.rank)
  transposes_S64x128_S128x64_1_0 : S64x128.Transposes [1, 0] S128x64
  transposes_S10000x64_S64x10000_1_0 : S10000x64.Transposes [1, 0] S64x10000
  bcast_S_S10000x10000 : S_.BroadcastsInDim S10000x10000 (![] : Fin 0 → Fin S10000x10000.rank)
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KRun.lean ====
/-
  The kernel's run, with every buffer named: from any memory with zero counters every weakly fair execution of the
  five-region program terminates, nothing faulting, and in the final state each buffer that is not scoped to a region
  holds what the fold through the program leaves in it — the host stretches applied in order, and after each region
  its arrays at what that region's write-backs leave. The two results and the six arguments are among those buffers.
-/
import proofs.«153249_g49400713838637_fold_wed_c4_295_9_alg».proof.Proof.Gen.KernelIdeal.Frame

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer not scoped to a region ends at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the two results and the six arguments read off the last boundary. -/
theorem run_named : θ_run defs (onTc (τ := τ) (main (F := F))) ⟨m, fun _ => 0, ρ⟩ (fun r => ∀ c : Dev nD,
      r.2.mem ((c.tc : Thread nD τ).loc main_v7) = W9 m ρ c (Proc.devRef .tc main_v7)
      ∧ r.2.mem ((c.tc : Thread nD τ).loc main_v9) = W9 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v7 (by decide)),
       h c _ (mem_uc main_v9 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_boundary m ρ)

end Cert.KernelIdeal.KValue

end
-- ==== Proof.Spec.lean ====
/-
  The mathematics of the encoder, with no program in sight: three rounds of graph propagation and a Gram matrix, over
  the extended reals, entry by entry.

  With `A` the [10000, 10000] adjacency matrix, `X` the [10000, 128] features, `W₁` [256, 128], `W₂` [128, 256],
  `W₃` [64, 128] the weights, and `p` the flag "the integer `active` is not zero":

      S₁ = gate p (X · W₁ᵀ)                       [10000, 256]
      S₂ = gate p ((A · S₁) · W₂ᵀ)                [10000, 128]
      S₃ = (A · S₂) · W₃ᵀ                         [10000, 64]
      Z  = A · S₃                                 [10000, 64]     (the first result)
      H  = logistic (Z · Zᵀ)                      [10000, 10000]  (the second result)

  where `gate p v` is `v` when the flag is off and the leaky rectifier `v ≥ 0 ? v : slope · v` when it is on, applied to
  every entry, and a product's entry `(a, b)` is the sum over the contracted coordinate `c` of `L (a, c) · R (c, b)`.
  Nothing here needs the entries to be finite: every stage is the same expression on both sides of the claim.
-/
import Idealize.ShloMosaic.PureOps.Ideal
import Idealize.ShloMosaic.Lib.ValueIdx

noncomputable section

namespace Cert.Gcn

open Idealize.ShloMosaic Idealize.ShloMosaic.ValueIdx

/-- A matrix of `a` rows and `b` columns of extended reals. -/
abbrev Mat (a b : ℕ) : Type := (⟨2, ![a, b]⟩ : Shape).Idx → EReal

/-- The product of two matrices: entry `(a, b)` is the sum over `c` of `L (a, c) * R (c, b)`. -/
def mm {m k n : ℕ} (L : Mat m k) (R : Mat k n) : Mat m n :=
  fun j => ∑ c : Fin k, L (ix2 (j 0) c) * R (ix2 c (j 1))

theorem mm_apply {m k n : ℕ} (L : Mat m k) (R : Mat k n) (a : Fin m) (b : Fin n) :
    mm L R (ix2 a b) = ∑ c : Fin k, L (ix2 a c) * R (ix2 c b) := rfl

/-- The transpose: entry `(a, b)` is the operand's entry `(b, a)`. -/
def tr {m k : ℕ} (L : Mat m k) : Mat k m := fun j => L (ix2 (j 1) (j 0))

theorem tr_apply {m k : ℕ} (L : Mat m k) (a : Fin k) (b : Fin m) : tr L (ix2 a b) = L (ix2 b a) := rfl

/-- The flag: the integer argument is not zero. -/
def flag (act : (⟨0, ![]⟩ : Shape).Idx → BitVec 32) : BitVec 1 := IntOp.cmpi .ne (act ix0) 0#32

/-- The rectifier's slope on the negative side, the single-precision number nearest to one hundredth. -/
def slope : EReal := Ideal.ofBits .f32 0x3C23D70A#32

/-- The number the rectifier compares with: zero. -/
def zero : EReal := Ideal.ofBits .f32 0x00000000#32

/-- The leaky rectifier on one entry: `v` itself where `v ≥ 0`, `slope * v` elsewhere. -/
def leaky (v : EReal) : EReal :=
  Scalar.select (FloatOps.cmpf (F := Ideal) (φ := .f32) .oge v zero) v (slope * v)

/-- The rectifier applied only when the flag is on. -/
def gate (p : BitVec 1) (v : EReal) : EReal := Scalar.select p (leaky v) v

/-- The first support: the features times the first weights' transpose, gated. -/
def support1 (p : BitVec 1) (X : Mat 10000 128) (W1 : Mat 256 128) : Mat 10000 256 :=
  fun j => gate p (mm X (tr W1) j)

/-- The second support: the propagated first support times the second weights' transpose, gated. -/
def support2 (p : BitVec 1) (A : Mat 10000 10000) (S1 : Mat 10000 256) (W2 : Mat 128 256) : Mat 10000 128 :=
  fun j => gate p (mm (mm A S1) (tr W2) j)

/-- The third support: the propagated second support times the third weights' transpose. -/
def support3 (A : Mat 10000 10000) (S2 : Mat 10000 128) (W3 : Mat 64 128) : Mat 10000 64 :=
  mm (mm A S2) (tr W3)

/-- The Gram matrix of the rows of `Z` under the logistic function. -/
def gram (Z : Mat 10000 64) : Mat 10000 10000 := fun j => Ideal.logistic (mm Z (tr Z) j)

/-- The first result: the embedding, the adjacency matrix times the third support. -/
def embedding (X : Mat 10000 128) (A : Mat 10000 10000) (act : (⟨0, ![]⟩ : Shape).Idx → BitVec 32)
    (W1 : Mat 256 128) (W2 : Mat 128 256) (W3 : Mat 64 128) : Mat 10000 64 :=
  mm A (support3 A (support2 (flag act) A (support1 (flag act) X W1) W2) W3)

/-- The second result: the reconstructed adjacency, the logistic Gram matrix of the embedding. -/
def reconstruction (X : Mat 10000 128) (A : Mat 10000 10000) (act : (⟨0, ![]⟩ : Shape).Idx → BitVec 32)
    (W1 : Mat 256 128) (W2 : Mat 128 256) (W3 : Mat 64 128) : Mat 10000 10000 :=
  gram (embedding X A act W1 W2 W3)

end Cert.Gcn

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KGate.lean ====
/-
  The gated rectifier as the kernels spell it, read at one entry: a whole-array choice on the flag between the
  rectified array and the array itself, then a change of format that is the identity on the extended reals, is the
  specification's `gate` of the flag at that entry.
-/
import proofs.«153249_g49400713838637_fold_wed_c4_295_9_alg».proof.Proof.Spec
import Idealize.ShloMosaic.PureOps.Ideal

noncomputable section

namespace Cert.KernelIdeal.KValue

open Idealize.ShloMosaic Cert.Gcn

/-- The flag the kernels compute from the loaded integer is the specification's. -/
theorem flag_eq (act : (⟨0, ![]⟩ : Shape).Idx → BitVec 32) (v : BitVec 32) (hv : v = act ValueIdx.ix0) :
    Scalar.cmpi .ne v 0#32 = flag act := by
  subst hv; rfl

/-- The kernels' gated rectifier at an entry `j` of an array `z`. -/
theorem gate_apply {S : Shape} (v : BitVec 32) (z : FVec Ideal S .f32) (h : FTy.bits .bf16 < FTy.bits .f32) (j : S.Idx) :
    truncf (F := Ideal) .bf16
      (Scalar.select (Scalar.cmpi .ne v 0#32)
        (select (cmpf .oge z (broadcast S (Scalar.ofBits (F := Ideal) .f32 0x00000000#32))) z
          (mulf (broadcast S (Scalar.ofBits (F := Ideal) .f32 0x3C23D70A#32)) z)) z) h j
      = gate (Scalar.cmpi .ne v 0#32) (z j) := by
  show (Scalar.select (Scalar.cmpi .ne v 0#32) _ z) j = _
  unfold gate
  by_cases hp : Scalar.cmpi .ne v 0#32 = 1
  · rw [show ∀ {α : Type} (a b : α), Scalar.select (Scalar.cmpi .ne v 0#32) a b = a from fun a b => if_pos hp,
      show ∀ {α : Type} (a b : α), Scalar.select (Scalar.cmpi .ne v 0#32) a b = a from fun a b => if_pos hp]
    rfl
  · rw [show ∀ {α : Type} (a b : α), Scalar.select (Scalar.cmpi .ne v 0#32) a b = b from fun a b => if_neg hp,
      show ∀ {α : Type} (a b : α), Scalar.select (Scalar.cmpi .ne v 0#32) a b = b from fun a b => if_neg hp]

end Cert.KernelIdeal.KValue

end
-- ==== Proof.K0.lean ====
/-
  Region 0, the first layer: one grid point takes the flag, the whole feature array and the transposed first weights, and
  leaves in the first support's array the gated product features · weights. So after the region the first support's
  array is gate (X · W), entry by entry, of the arrays it was given.
-/
import proofs.«153249_g49400713838637_fold_wed_c4_295_9_alg».proof.Proof.Gen.KernelIdeal.Frame
import proofs.«153249_g49400713838637_fold_wed_c4_295_9_alg».proof.Proof.Spec
import proofs.«153249_g49400713838637_fold_wed_c4_295_9_alg».proof.Proof.LibDenseLayers
import Idealize.ShloMosaic.Lib.Pipeline.Value
import Idealize.ShloMosaic.Lib.ValueIdx
import Idealize.ShloMosaic.Lib.Tactic
import proofs.«153249_g49400713838637_fold_wed_c4_295_9_alg».proof.Proof.KGate

noncomputable section

namespace Cert.KernelIdeal.KValue.R0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The stored value at an entry: the product, then the gated rectifier. -/
theorem pay_apply (x1 : FVec Ideal S10000x128 .f32) (x2 : FVec Ideal S128x256 .f32) (v : BitVec 32)
    (a : Fin 10000) (b : Fin 256) :
    k0_pay1 (F := Ideal) x1 x2 v (ix2 a b)
      = gate (Scalar.cmpi .ne v 0#32) (∑ k : Fin 128, x1 (ix2 a k) * x2 (ix2 k b)) := by
  unfold k0_pay1
  rw [shapeCast_self]
  refine (gate_apply v _ _ (ix2 a b)).trans (congrArg (gate _) ?_)
  exact DenseLayers.matmul_rowcol_zero_apply (m := 10000) (k := 128) (n := 256)
    (dot_S10000x128_S128x256_S10000x256_1_0_0_1_n_n).wf none x1 x2 a b

/-- What the body leaves in the output's staging buffer is its store's value of the arrays it loaded and the flag. -/
theorem out_eq (c : Dev nD) (a0 : Memref sig .tc .smem S1x1 .i32) (h0 : a0.IsWhole)
    (a1 : Memref sig .tc .vmem S10000x128 .f32) (h1 : a1.IsWhole) (a2 : Memref sig .tc .vmem S128x256 .f32) (h2 : a2.IsWhole)
    (a3 : Memref sig .tc .vmem S10000x256 .bf16) (h3 : a3.IsWhole)
    (x0 : Vec Ideal S1x1 .i32) (x1 : Vec Ideal S10000x128 .f32) (x2 : Vec Ideal S128x256 .f32) :
    out0_A_3 c a0 h0 a1 h1 a2 h2 a3 h3 x0 x1 x2 = k0_pay1 x1 x2 (x0 (ix2 0 0)) := by
  unfold out0_A_3
  rw [View.read_writes_eq_canon _ _ _ (cover0_A_3 c a0 h0 a1 h1 a2 h2 a3 h3 x0 x1 x2)]
  unfold kernelRun0_A
  dsimp only
  sl_unfold_words
  rw [View.canon_unit_zero hz]
  simp only [View.readAt_eq_ld, h0.read_unread, h1.read_unread, h2.read_unread,
    View.ld_unit_zero (S := S10000x128) hz, View.ld_unit_zero (S := S128x256) hz, View.ld_unit_zero (S := S1x1) hz]
  refine congrArg (k0_pay1 x1 x2) (congrArg x0 (funext fun ax => Fin.ext ?_))
  match ax with
  | ⟨0, _⟩ => rfl
  | ⟨1, _⟩ => rfl

/-- The printed index maps at the one grid point: every block is its whole array. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The flag's block is the flag's one-entry array. -/
theorem blk0_apply (c : Dev nD) (t : Fin cfg0.N) :
    (iblk0 V c 0 t : Vec Ideal S1x1 .i32) (ix2 0 0) = V c main_v0 (ix2 0 0) := by
  unfold iblk0
  rw [View.read_apply]
  show V c main_v0 (((cfg0.win 0).blk t).view.emb (ix2 0 0)) = _
  refine congrArg _ (funext fun ax => Fin.ext ?_)
  obtain ⟨e0, e1, -⟩ := idx t
  match ax with
  | ⟨0, _⟩ => show win0_0.index t (0 : Fin 2) * 1 + 1 * 0 = 0; omega
  | ⟨1, _⟩ => show win0_0.index t (1 : Fin 2) * 1 + 1 * 0 = 0; omega

/-- The features' block is the whole feature array. -/
theorem blk1_apply (c : Dev nD) (t : Fin cfg0.N) (a : Fin 10000) (k : Fin 128) :
    (iblk0 V c 1 t : Vec Ideal S10000x128 .f32) (ix2 a k) = V c main_arg0 (ix2 a k) := by
  unfold iblk0
  rw [View.read_apply]
  show V c main_arg0 (((cfg0.win 1).blk t).view.emb (ix2 a k)) = _
  refine congrArg _ (funext fun ax => Fin.ext ?_)
  obtain ⟨-, -, e2, e3, -⟩ := idx t
  match ax with
  | ⟨0, _⟩ => show win0_1.index t (0 : Fin 2) * 10000 + 1 * a.val = a.val; omega
  | ⟨1, _⟩ => show win0_1.index t (1 : Fin 2) * 128 + 1 * k.val = k.val; omega

/-- The weights' block is the whole weights array. -/
theorem blk2_apply (c : Dev nD) (t : Fin cfg0.N) (k : Fin 128) (b : Fin 256) :
    (iblk0 V c 2 t : Vec Ideal S128x256 .f32) (ix2 k b) = V c main_v1 (ix2 k b) := by
  unfold iblk0
  rw [View.read_apply]
  show V c main_v1 (((cfg0.win 2).blk t).view.emb (ix2 k b)) = _
  refine congrArg _ (funext fun ax => Fin.ext ?_)
  obtain ⟨-, -, -, -, e4, e5, -⟩ := idx t
  match ax with
  | ⟨0, _⟩ => show win0_2.index t (0 : Fin 2) * 128 + 1 * k.val = k.val; omega
  | ⟨1, _⟩ => show win0_2.index t (1 : Fin 2) * 256 + 1 * b.val = b.val; omega

/-- The support the region leaves, as a function of the arrays it was given. -/
def result (act : (⟨2, ![1, 1]⟩ : Shape).Idx → BitVec 32) (X : Mat 10000 128) (W : Mat 128 256) : Mat 10000 256 :=
  fun j => gate (Scalar.cmpi .ne (act (ix2 0 0)) 0#32) (mm X W j)

/-- What the one point writes back is that function of the arrays, whole. -/
theorem flushed_eq (c : Dev nD) (t : Fin cfg0.N) :
    (dat0 V c).flushed 3 t
      = ((cfg0.win 3).blk t).view.read (Elt Ideal) (result (V c main_v0) (V c main_arg0) (V c main_v1)) := by
  show (cfg0.win 3).cut (grid0.coords t) ((dat0 V c).after 3 t) = _
  rw [after0_3]
  unfold outsAt0
  rw [out_eq]
  obtain ⟨-, -, -, -, -, -, e6, e7⟩ := idx t
  funext j
  obtain ⟨a, b, rfl⟩ : ∃ (a : Fin 10000) (b : Fin 256), j = ix2 a b := ⟨j 0, j 1, eq_ix2 j⟩
  have he : ((cfg0.win 3).blk t).view.emb (ix2 a b) = ix2 a b := by
    funext ax; apply Fin.ext
    match ax with
    | ⟨0, _⟩ => show win0_3.index t (0 : Fin 2) * 10000 + 1 * a.val = a.val; omega
    | ⟨1, _⟩ => show win0_3.index t (1 : Fin 2) * 256 + 1 * b.val = b.val; omega
  refine (pay_apply (iblk0 V c 1 t) (iblk0 V c 2 t) _ a b).trans ?_
  rw [View.read_apply, he, blk0_apply V c t]
  show _ = gate _ (mm (V c main_arg0) (V c main_v1) (ix2 a b))
  rw [mm_apply]
  refine congrArg (gate _) (Finset.sum_congr rfl fun k _ => ?_)
  rw [blk1_apply V c t a k, blk2_apply V c t k b]

/-- An index of the support's array is in the one point's block iff each coordinate is in the block's range. -/
theorem mem_blk (t : Fin cfg0.N) (i : S10000x256.Idx) :
    i ∈ ((cfg0.win 3).blk t).view.set ↔ ∀ a : Fin 2, win0_3.index t a * S10000x256.size a ≤ (i a).val
      ∧ (i a).val < win0_3.index t a * S10000x256.size a + S10000x256.size a := by
  show i ∈ ((View.whole main_v2).slice (win0_3.rect t)).set ↔ _
  rw [View.set_slice_whole, Rect.mem_set_unit]
  exact Iff.rfl

/-- After the region the first support's array is the gated features · weights. -/
theorem final (c : Dev nD) :
    (dat0 V c).arrAt 3 cfg0.N = result (V c main_v0) (V c main_arg0) (V c main_v1) :=
  (dat0 V c).arrAt_eq_of_cover 3 _ (fun t _ => flushed_eq V c t) fun i => by
    have hN : cfg0.N = 1 := N_0
    have hi0 : (i 0).val < 10000 := (i 0).isLt
    have hi1 : (i 1).val < 256 := (i 1).isLt
    have hq : 0 < cfg0.N := by rw [hN]; omega
    refine ⟨⟨0, hq⟩, flush0_3 _, ?_⟩
    rw [mem_blk]
    obtain ⟨-, -, -, -, -, -, e6, e7⟩ := idx ⟨0, hq⟩
    intro a
    match a with
    | ⟨0, _⟩ =>
      show win0_3.index ⟨0, hq⟩ (0 : Fin 2) * 10000 ≤ (i 0).val
        ∧ (i 0).val < win0_3.index ⟨0, hq⟩ (0 : Fin 2) * 10000 + 10000
      omega
    | ⟨1, _⟩ =>
      show win0_3.index ⟨0, hq⟩ (1 : Fin 2) * 256 ≤ (i 1).val
        ∧ (i 1).val < win0_3.index ⟨0, hq⟩ (1 : Fin 2) * 256 + 256
      omega

end Cert.KernelIdeal.KValue.R0

end
-- ==== Proof.K1.lean ====
/-
  Region 1, the second layer: each grid point takes the flag, a block of 200 rows of the adjacency matrix, the whole
  first support and the transposed second weights, and leaves, in the matching 200 rows of the second support, the
  gated (block · support) · weights, and in the matching 200 rows of a second array the adjacency block itself (a
  change of format, the identity on the extended reals). So after the region the second support's array is
  gate ((A · S₁) · W), entry by entry, of the arrays it was given, and the second array is the adjacency array.
-/
import proofs.«153249_g49400713838637_fold_wed_c4_295_9_alg».proof.Proof.Gen.KernelIdeal.Frame
import proofs.«153249_g49400713838637_fold_wed_c4_295_9_alg».proof.Proof.Spec
import proofs.«153249_g49400713838637_fold_wed_c4_295_9_alg».proof.Proof.LibDenseLayers
import Idealize.ShloMosaic.Lib.Pipeline.Value
import Idealize.ShloMosaic.Lib.ValueIdx
import Idealize.ShloMosaic.Lib.Tactic
import proofs.«153249_g49400713838637_fold_wed_c4_295_9_alg».proof.Proof.KGate

noncomputable section

namespace Cert.KernelIdeal.KValue.R1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The support's stored value at an entry: two products in a row, then the gated rectifier. -/
theorem pay2_apply (x1 : FVec Ideal S200x10000 .f32) (x2 : FVec Ideal S10000x256 .bf16) (x3 : FVec Ideal S256x128 .f32)
    (v : BitVec 32) (a : Fin 200) (b : Fin 128) :
    k1_pay2 (F := Ideal) x1 x2 x3 v (ix2 a b)
      = gate (Scalar.cmpi .ne v 0#32)
          (∑ q : Fin 256, (∑ k : Fin 10000, x1 (ix2 a k) * x2 (ix2 k q)) * x3 (ix2 q b)) := by
  unfold k1_pay2
  rw [shapeCast_self, shapeCast_self]
  refine (gate_apply v _ _ (ix2 a b)).trans (congrArg (gate _) ?_)
  refine (DenseLayers.matmul_rowcol_zero_apply (m := 200) (k := 256) (n := 128)
    (dot_S200x256_S256x128_S200x128_1_0_0_1_n_n).wf none _ x3 a b).trans ?_
  refine Finset.sum_congr rfl fun q _ => ?_
  exact congrArg (fun z => z * x3 (ix2 q b)) (DenseLayers.matmul_rowcol_zero_apply (m := 200) (k := 10000) (n := 256)
    (dot_S200x10000_S10000x256_S200x256_1_0_0_1_n_n).wf none _ x2 a q)

/-- What the body leaves in the support's staging buffer is its store's value of the blocks it loaded and the flag. -/
theorem out4_eq (c : Dev nD) (i : grid1.Coords) (a1 : Memref sig .tc .smem S1x1 .i32) (h1 : a1.IsWhole)
    (a2 : Memref sig .tc .vmem S200x10000 .f32) (h2 : a2.IsWhole) (a3 : Memref sig .tc .vmem S10000x256 .bf16) (h3 : a3.IsWhole)
    (a4 : Memref sig .tc .vmem S256x128 .f32) (h4 : a4.IsWhole) (a5 : Memref sig .tc .vmem S200x128 .bf16) (h5 : a5.IsWhole)
    (a6 : Memref sig .tc .vmem S200x10000 .bf16) (h6 : a6.IsWhole)
    (x0 : Vec Ideal S1x1 .i32) (x1 : Vec Ideal S200x10000 .f32) (x2 : Vec Ideal S10000x256 .bf16) (x3 : Vec Ideal S256x128 .f32) :
    out1_A_4 c i a1 h1 a2 h2 a3 h3 a4 h4 a5 h5 a6 h6 x0 x1 x2 x3 = k1_pay2 x1 x2 x3 (x0 (ix2 0 0)) := by
  unfold out1_A_4
  rw [View.read_writes_eq_canon _ _ _ (cover1_A_4 c i a1 h1 a2 h2 a3 h3 a4 h4 a5 h5 a6 h6 x0 x1 x2 x3)]
  unfold kernelRun1_A
  dsimp only
  sl_unfold_words
  rw [View.canon_unit_zero hz]
  simp only [View.readAt_eq_ld, h1.read_unread, h2.read_unread, h3.read_unread, h4.read_unread,
    View.ld_unit_zero (S := S200x10000) hz, View.ld_unit_zero (S := S10000x256) hz, View.ld_unit_zero (S := S256x128) hz,
    View.ld_unit_zero (S := S1x1) hz]
  refine congrArg (k1_pay2 x1 x2 x3) (congrArg x0 (funext fun ax => Fin.ext ?_))
  match ax with
  | ⟨0, _⟩ => rfl
  | ⟨1, _⟩ => rfl

/-- What the body leaves in the copy's staging buffer is the adjacency block it loaded. -/
theorem out5_eq (c : Dev nD) (i : grid1.Coords) (a1 : Memref sig .tc .smem S1x1 .i32) (h1 : a1.IsWhole)
    (a2 : Memref sig .tc .vmem S200x10000 .f32) (h2 : a2.IsWhole) (a3 : Memref sig .tc .vmem S10000x256 .bf16) (h3 : a3.IsWhole)
    (a4 : Memref sig .tc .vmem S256x128 .f32) (h4 : a4.IsWhole) (a5 : Memref sig .tc .vmem S200x128 .bf16) (h5 : a5.IsWhole)
    (a6 : Memref sig .tc .vmem S200x10000 .bf16) (h6 : a6.IsWhole)
    (x0 : Vec Ideal S1x1 .i32) (x1 : Vec Ideal S200x10000 .f32) (x2 : Vec Ideal S10000x256 .bf16) (x3 : Vec Ideal S256x128 .f32) :
    out1_A_5 c i a1 h1 a2 h2 a3 h3 a4 h4 a5 h5 a6 h6 x0 x1 x2 x3 = k1_pay1 x1 := by
  unfold out1_A_5
  rw [View.read_writes_eq_canon _ _ _ (cover1_A_5 c i a1 h1 a2 h2 a3 h3 a4 h4 a5 h5 a6 h6 x0 x1 x2 x3)]
  unfold kernelRun1_A
  dsimp only
  rw [View.canon_unit_zero hz]
  simp only [View.readAt_eq_ld, h2.read_unread, View.ld_unit_zero (S := S200x10000) hz]

/-- The printed index maps over the 50 grid points: the adjacency block and the two output blocks move down with the
    point, the flag, the support and the weights stay. -/
theorem idx : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The flag's block at every point is the flag's one-entry array. -/
theorem blk0_apply (c : Dev nD) (t : Fin cfg1.N) :
    (iblk1 V c 0 t : Vec Ideal S1x1 .i32) (ix2 0 0) = V c main_v0 (ix2 0 0) := by
  unfold iblk1
  rw [View.read_apply]
  show V c main_v0 (((cfg1.win 0).blk t).view.emb (ix2 0 0)) = _
  refine congrArg _ (funext fun ax => Fin.ext ?_)
  obtain ⟨e0, e1, -⟩ := idx t
  match ax with
  | ⟨0, _⟩ => show win1_0.index t (0 : Fin 2) * 1 + 1 * 0 = 0; omega
  | ⟨1, _⟩ => show win1_0.index t (1 : Fin 2) * 1 + 1 * 0 = 0; omega

/-- Row `a` of the adjacency block at point `t` is row `200 t + a` of the adjacency array. -/
theorem blk1_apply (c : Dev nD) (t : Fin cfg1.N) (a : Fin 200) (k : Fin 10000) (p : Fin 10000)
    (hp : p.val = t.val * 200 + a.val) :
    (iblk1 V c 1 t : Vec Ideal S200x10000 .f32) (ix2 a k) = V c main_arg1 (ix2 p k) := by
  unfold iblk1
  rw [View.read_apply]
  show V c main_arg1 (((cfg1.win 1).blk t).view.emb (ix2 a k)) = _
  refine congrArg _ (funext fun ax => Fin.ext ?_)
  obtain ⟨-, -, e2, e3, -⟩ := idx t
  match ax with
  | ⟨0, _⟩ => show win1_1.index t (0 : Fin 2) * 200 + 1 * a.val = p.val; omega
  | ⟨1, _⟩ => show win1_1.index t (1 : Fin 2) * 10000 + 1 * k.val = k.val; omega

/-- The support's block at every point is the whole support array. -/
theorem blk2_apply (c : Dev nD) (t : Fin cfg1.N) (k : Fin 10000) (b : Fin 256) :
    (iblk1 V c 2 t : Vec Ideal S10000x256 .bf16) (ix2 k b) = V c main_v2 (ix2 k b) := by
  unfold iblk1
  rw [View.read_apply]
  show V c main_v2 (((cfg1.win 2).blk t).view.emb (ix2 k b)) = _
  refine congrArg _ (funext fun ax => Fin.ext ?_)
  obtain ⟨-, -, -, -, e4, e5, -⟩ := idx t
  match ax with
  | ⟨0, _⟩ => show win1_2.index t (0 : Fin 2) * 10000 + 1 * k.val = k.val; omega
  | ⟨1, _⟩ => show win1_2.index t (1 : Fin 2) * 256 + 1 * b.val = b.val; omega

/-- The weights' block at every point is the whole weights array. -/
theorem blk3_apply (c : Dev nD) (t : Fin cfg1.N) (k : Fin 256) (b : Fin 128) :
    (iblk1 V c 3 t : Vec Ideal S256x128 .f32) (ix2 k b) = V c main_v3 (ix2 k b) := by
  unfold iblk1
  rw [View.read_apply]
  show V c main_v3 (((cfg1.win 3).blk t).view.emb (ix2 k b)) = _
  refine congrArg _ (funext fun ax => Fin.ext ?_)
  obtain ⟨-, -, -, -, -, -, e6, e7, -⟩ := idx t
  match ax with
  | ⟨0, _⟩ => show win1_3.index t (0 : Fin 2) * 256 + 1 * k.val = k.val; omega
  | ⟨1, _⟩ => show win1_3.index t (1 : Fin 2) * 128 + 1 * b.val = b.val; omega

/-- The support the region leaves, as a function of the arrays it was given. -/
def result (act : (⟨2, ![1, 1]⟩ : Shape).Idx → BitVec 32) (A : Mat 10000 10000) (S : Mat 10000 256) (W : Mat 256 128) :
    Mat 10000 128 :=
  fun j => gate (Scalar.cmpi .ne (act (ix2 0 0)) 0#32) (mm (mm A S) W j)

/-- What point `t` writes back to the support is block `t` of that function of the arrays. -/
theorem flushed4_eq (c : Dev nD) (t : Fin cfg1.N) :
    (dat1 V c).flushed 4 t
      = ((cfg1.win 4).blk t).view.read (Elt Ideal)
          (result (V c main_v0) (V c main_arg1) (V c main_v2) (V c main_v3)) := by
  show (cfg1.win 4).cut (grid1.coords t) ((dat1 V c).after 4 t) = _
  rw [after1_4]
  unfold outsAt1
  dsimp only
  rw [out4_eq]
  have hN : cfg1.N = 50 := N_1
  have ht : t.val < 50 := hN ▸ t.isLt
  obtain ⟨-, -, -, -, -, -, -, -, e8, e9, -⟩ := idx t
  funext j
  obtain ⟨a, b, rfl⟩ : ∃ (a : Fin 200) (b : Fin 128), j = ix2 a b := ⟨j 0, j 1, eq_ix2 j⟩
  have hp : t.val * 200 + a.val < 10000 := by have := a.isLt; omega
  have he : ((cfg1.win 4).blk t).view.emb (ix2 a b) = ix2 (⟨t.val * 200 + a.val, hp⟩ : Fin 10000) b := by
    funext ax; apply Fin.ext
    match ax with
    | ⟨0, _⟩ => show win1_4.index t (0 : Fin 2) * 200 + 1 * a.val = t.val * 200 + a.val; omega
    | ⟨1, _⟩ => show win1_4.index t (1 : Fin 2) * 128 + 1 * b.val = b.val; omega
  refine (pay2_apply (iblk1 V c 1 t) (iblk1 V c 2 t) (iblk1 V c 3 t) _ a b).trans ?_
  rw [View.read_apply, he, blk0_apply V c t]
  show _ = gate _ (mm (mm (V c main_arg1) (V c main_v2)) (V c main_v3) (ix2 (⟨t.val * 200 + a.val, hp⟩ : Fin 10000) b))
  rw [mm_apply]
  refine congrArg (gate _) (Finset.sum_congr rfl fun q _ => ?_)
  rw [mm_apply, blk3_apply V c t q b]
  refine congrArg (fun z => z * V c main_v3 (ix2 q b)) (Finset.sum_congr rfl fun k _ => ?_)
  rw [blk1_apply V c t a k ⟨t.val * 200 + a.val, hp⟩ rfl, blk2_apply V c t k q]

/-- What point `t` writes back to the copy is block `t` of the adjacency array. -/
theorem flushed5_eq (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold outsAt1
  dsimp only
  rw [out5_eq]
  have hN : cfg1.N = 50 := N_1
  have ht : t.val < 50 := hN ▸ t.isLt
  obtain ⟨-, -, -, -, -, -, -, -, -, -, e10, e11⟩ := idx t
  funext j
  obtain ⟨a, b, rfl⟩ : ∃ (a : Fin 200) (b : Fin 10000), j = ix2 a b := ⟨j 0, j 1, eq_ix2 j⟩
  have hp : t.val * 200 + a.val < 10000 := by have := a.isLt; omega
  have he : ((cfg1.win 5).blk t).view.emb (ix2 a b) = ix2 (⟨t.val * 200 + a.val, hp⟩ : Fin 10000) b := by
    funext ax; apply Fin.ext
    match ax with
    | ⟨0, _⟩ => show win1_5.index t (0 : Fin 2) * 200 + 1 * a.val = t.val * 200 + a.val; omega
    | ⟨1, _⟩ => show win1_5.index t (1 : Fin 2) * 10000 + 1 * b.val = b.val; omega
  rw [View.read_apply, he]
  exact blk1_apply V c t a b ⟨t.val * 200 + a.val, hp⟩ rfl

/-- An index of the support's array is in point `t`'s block iff each coordinate is in the block's range. -/
theorem mem_blk4 (t : Fin cfg1.N) (i : S10000x128.Idx) :
    i ∈ ((cfg1.win 4).blk t).view.set ↔ ∀ a : Fin 2, win1_4.index t a * S200x128.size a ≤ (i a).val
      ∧ (i a).val < win1_4.index t a * S200x128.size a + S200x128.size a := by
  show i ∈ ((View.whole main_v4_0).slice (win1_4.rect t)).set ↔ _
  rw [View.set_slice_whole, Rect.mem_set_unit]
  exact Iff.rfl

/-- An index of the copy's array is in point `t`'s block iff each coordinate is in the block's range. -/
theorem mem_blk5 (t : Fin cfg1.N) (i : S10000x10000.Idx) :
    i ∈ ((cfg1.win 5).blk t).view.set ↔ ∀ a : Fin 2, win1_5.index t a * S200x10000.size a ≤ (i a).val
      ∧ (i a).val < win1_5.index t a * S200x10000.size a + S200x10000.size a := by
  show i ∈ ((View.whole main_v4_1).slice (win1_5.rect t)).set ↔ _
  rw [View.set_slice_whole, Rect.mem_set_unit]
  exact Iff.rfl

/-- After the region the second support's array is the gated (adjacency · support) · weights: row `r` is written by
    point `r / 200`. -/
theorem final4 (c : Dev nD) :
    (dat1 V c).arrAt 4 cfg1.N = result (V c main_v0) (V c main_arg1) (V c main_v2) (V c main_v3) :=
  (dat1 V c).arrAt_eq_of_cover 4 _ (fun t _ => flushed4_eq V c t) fun i => by
    have hN : cfg1.N = 50 := N_1
    have hi0 : (i 0).val < 10000 := (i 0).isLt
    have hi1 : (i 1).val < 128 := (i 1).isLt
    have hq : (i 0).val / 200 < cfg1.N := by rw [hN]; omega
    refine ⟨⟨(i 0).val / 200, hq⟩, flush1_4 _, ?_⟩
    rw [mem_blk4]
    obtain ⟨-, -, -, -, -, -, -, -, e8, e9, -⟩ := idx ⟨(i 0).val / 200, hq⟩
    intro a
    match a with
    | ⟨0, _⟩ =>
      show win1_4.index ⟨(i 0).val / 200, hq⟩ (0 : Fin 2) * 200 ≤ (i 0).val
        ∧ (i 0).val < win1_4.index ⟨(i 0).val / 200, hq⟩ (0 : Fin 2) * 200 + 200
      rw [e8]; show (i 0).val / 200 * 200 ≤ (i 0).val ∧ (i 0).val < (i 0).val / 200 * 200 + 200; omega
    | ⟨1, _⟩ =>
      show win1_4.index ⟨(i 0).val / 200, hq⟩ (1 : Fin 2) * 128 ≤ (i 1).val
        ∧ (i 1).val < win1_4.index ⟨(i 0).val / 200, hq⟩ (1 : Fin 2) * 128 + 128
      omega

/-- After the region the copy's array is the adjacency array. -/
theorem final5 (c : Dev nD) : (dat1 V c).arrAt 5 cfg1.N = V c main_arg1 :=
  (dat1 V c).arrAt_eq_of_cover 5 _ (fun t _ => flushed5_eq V c t) fun i => by
    have hN : cfg1.N = 50 := N_1
    have hi0 : (i 0).val < 10000 := (i 0).isLt
    have hi1 : (i 1).val < 10000 := (i 1).isLt
    have hq : (i 0).val / 200 < cfg1.N := by rw [hN]; omega
    refine ⟨⟨(i 0).val / 200, hq⟩, flush1_5 _, ?_⟩
    rw [mem_blk5]
    obtain ⟨-, -, -, -, -, -, -, -, -, -, e10, e11⟩ := idx ⟨(i 0).val / 200, hq⟩
    intro a
    match a with
    | ⟨0, _⟩ =>
      show win1_5.index ⟨(i 0).val / 200, hq⟩ (0 : Fin 2) * 200 ≤ (i 0).val
        ∧ (i 0).val < win1_5.index ⟨(i 0).val / 200, hq⟩ (0 : Fin 2) * 200 + 200
      rw [e10]; show (i 0).val / 200 * 200 ≤ (i 0).val ∧ (i 0).val < (i 0).val / 200 * 200 + 200; omega
    | ⟨1, _⟩ =>
      show win1_5.index ⟨(i 0).val / 200, hq⟩ (1 : Fin 2) * 10000 ≤ (i 1).val
        ∧ (i 1).val < win1_5.index ⟨(i 0).val / 200, hq⟩ (1 : Fin 2) * 10000 + 10000
      omega

end Cert.KernelIdeal.KValue.R1

end
-- ==== Proof.K2.lean ====
/-
  Region 2, the third layer: each grid point takes a block of 400 rows of the adjacency matrix, the whole second support
  and the transposed third weights, and leaves, in the matching 400 rows of the third support, (block · support) ·
  weights. So after the region the third support's array is (A · S₂) · W, entry by entry, of the arrays it was given.
-/
import proofs.«153249_g49400713838637_fold_wed_c4_295_9_alg».proof.Proof.Gen.KernelIdeal.Frame
import proofs.«153249_g49400713838637_fold_wed_c4_295_9_alg».proof.Proof.Spec
import proofs.«153249_g49400713838637_fold_wed_c4_295_9_alg».proof.Proof.LibDenseLayers
import Idealize.ShloMosaic.Lib.Pipeline.Value
import Idealize.ShloMosaic.Lib.ValueIdx
import Idealize.ShloMosaic.Lib.Tactic

noncomputable section

namespace Cert.KernelIdeal.KValue.R2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an entry: two products in a row (the change of format at the end is the identity on
    the extended reals). -/
theorem pay_apply (x1 : FVec Ideal S400x10000 .bf16) (x2 : FVec Ideal S10000x128 .bf16) (x3 : FVec Ideal S128x64 .f32)
    (a : Fin 400) (b : Fin 64) :
    k2_pay1 (F := Ideal) x1 x2 x3 (ix2 a b)
      = ∑ c : Fin 128, (∑ k : Fin 10000, x1 (ix2 a k) * x2 (ix2 k c)) * x3 (ix2 c b) := by
  unfold k2_pay1
  rw [shapeCast_self, shapeCast_self, shapeCast_self]
  refine (DenseLayers.matmul_rowcol_zero_apply (m := 400) (k := 128) (n := 64)
    (dot_S400x128_S128x64_S400x64_1_0_0_1_n_n).wf none _ x3 a b).trans ?_
  refine Finset.sum_congr rfl fun c _ => ?_
  exact congrArg (fun z => z * x3 (ix2 c b)) (DenseLayers.matmul_rowcol_zero_apply (m := 400) (k := 10000) (n := 128)
    (dot_S400x10000_S10000x128_S400x128_1_0_0_1_n_n).wf none x1 x2 a c)

/-- What the body leaves in the output's staging buffer is its one store's value of the blocks it loaded. -/
theorem out_eq (c : Dev nD) (i : grid2.Coords) (a1 : Memref sig .tc .smem S1x1 .i32) (h1 : a1.IsWhole)
    (a2 : Memref sig .tc .vmem S400x10000 .bf16) (h2 : a2.IsWhole) (a3 : Memref sig .tc .vmem S10000x128 .bf16) (h3 : a3.IsWhole)
    (a4 : Memref sig .tc .vmem S128x64 .f32) (h4 : a4.IsWhole) (a5 : Memref sig .tc .vmem S400x64 .bf16) (h5 : a5.IsWhole)
    (x0 : Vec Ideal S1x1 .i32) (x1 : Vec Ideal S400x10000 .bf16) (x2 : Vec Ideal S10000x128 .bf16) (x3 : Vec Ideal S128x64 .f32) :
    out2_A_4 c i a1 h1 a2 h2 a3 h3 a4 h4 a5 h5 x0 x1 x2 x3 = k2_pay1 x1 x2 x3 := by
  unfold out2_A_4
  rw [View.read_writes_eq_canon _ _ _ (cover2_A_4 c i a1 h1 a2 h2 a3 h3 a4 h4 a5 h5 x0 x1 x2 x3)]
  unfold kernelRun2_A
  dsimp only
  rw [View.canon_unit_zero hz]
  simp only [View.readAt_eq_ld, h2.read_unread, h3.read_unread, h4.read_unread, View.ld_unit_zero (S := S400x10000) hz,
    View.ld_unit_zero (S := S10000x128) hz, View.ld_unit_zero (S := S128x64) hz]

/-- The printed index maps over the 25 grid points: the adjacency block and the output block move down with the point,
    the support and the weights stay. -/
theorem idx : ∀ t : Fin cfg2.N, win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `a` of the adjacency block at point `t` is row `400 t + a` of the adjacency array. -/
theorem blk1_apply (c : Dev nD) (t : Fin cfg2.N) (a : Fin 400) (k : Fin 10000) (p : Fin 10000)
    (hp : p.val = t.val * 400 + a.val) :
    (iblk2 V c 1 t : Vec Ideal S400x10000 .bf16) (ix2 a k) = V c main_v4_1 (ix2 p k) := by
  unfold iblk2
  rw [View.read_apply]
  show V c main_v4_1 (((cfg2.win 1).blk t).view.emb (ix2 a k)) = _
  refine congrArg _ (funext fun ax => Fin.ext ?_)
  obtain ⟨e0, e1, -⟩ := idx t
  match ax with
  | ⟨0, _⟩ => show win2_1.index t (0 : Fin 2) * 400 + 1 * a.val = p.val; omega
  | ⟨1, _⟩ => show win2_1.index t (1 : Fin 2) * 10000 + 1 * k.val = k.val; omega

/-- The support's block at every point is the whole support array. -/
theorem blk2_apply (c : Dev nD) (t : Fin cfg2.N) (k : Fin 10000) (b : Fin 128) :
    (iblk2 V c 2 t : Vec Ideal S10000x128 .bf16) (ix2 k b) = V c main_v4_0 (ix2 k b) := by
  unfold iblk2
  rw [View.read_apply]
  show V c main_v4_0 (((cfg2.win 2).blk t).view.emb (ix2 k b)) = _
  refine congrArg _ (funext fun ax => Fin.ext ?_)
  obtain ⟨-, -, e2, e3, -⟩ := idx t
  match ax with
  | ⟨0, _⟩ => show win2_2.index t (0 : Fin 2) * 10000 + 1 * k.val = k.val; omega
  | ⟨1, _⟩ => show win2_2.index t (1 : Fin 2) * 128 + 1 * b.val = b.val; omega

/-- The weights' block at every point is the whole weights array. -/
theorem blk3_apply (c : Dev nD) (t : Fin cfg2.N) (k : Fin 128) (b : Fin 64) :
    (iblk2 V c 3 t : Vec Ideal S128x64 .f32) (ix2 k b) = V c main_v5 (ix2 k b) := by
  unfold iblk2
  rw [View.read_apply]
  show V c main_v5 (((cfg2.win 3).blk t).view.emb (ix2 k b)) = _
  refine congrArg _ (funext fun ax => Fin.ext ?_)
  obtain ⟨-, -, -, -, e4, e5, -⟩ := idx t
  match ax with
  | ⟨0, _⟩ => show win2_3.index t (0 : Fin 2) * 128 + 1 * k.val = k.val; omega
  | ⟨1, _⟩ => show win2_3.index t (1 : Fin 2) * 64 + 1 * b.val = b.val; omega

/-- What point `t` writes back is block `t` of (adjacency · support) · weights of the arrays the region was given. -/
theorem flushed_eq (c : Dev nD) (t : Fin cfg2.N) :
    (dat2 V c).flushed 4 t
      = ((cfg2.win 4).blk t).view.read (Elt Ideal) (mm (mm (V c main_v4_1) (V c main_v4_0)) (V c main_v5)) := by
  show (cfg2.win 4).cut (grid2.coords t) ((dat2 V c).after 4 t) = _
  rw [after2_4]
  unfold outsAt2
  rw [out_eq]
  have hN : cfg2.N = 25 := N_2
  have ht : t.val < 25 := hN ▸ t.isLt
  obtain ⟨-, -, -, -, -, -, e6, e7⟩ := idx t
  funext j
  obtain ⟨a, b, rfl⟩ : ∃ (a : Fin 400) (b : Fin 64), j = ix2 a b := ⟨j 0, j 1, eq_ix2 j⟩
  have hp : t.val * 400 + a.val < 10000 := by have := a.isLt; omega
  have he : ((cfg2.win 4).blk t).view.emb (ix2 a b) = ix2 (⟨t.val * 400 + a.val, hp⟩ : Fin 10000) b := by
    funext ax; apply Fin.ext
    match ax with
    | ⟨0, _⟩ => show win2_4.index t (0 : Fin 2) * 400 + 1 * a.val = t.val * 400 + a.val; omega
    | ⟨1, _⟩ => show win2_4.index t (1 : Fin 2) * 64 + 1 * b.val = b.val; omega
  refine (pay_apply (iblk2 V c 1 t) (iblk2 V c 2 t) (iblk2 V c 3 t) a b).trans ?_
  rw [View.read_apply, he, mm_apply]
  refine Finset.sum_congr rfl fun q _ => ?_
  rw [mm_apply, blk3_apply V c t q b]
  refine congrArg (fun z => z * V c main_v5 (ix2 q b)) (Finset.sum_congr rfl fun k _ => ?_)
  rw [blk1_apply V c t a k ⟨t.val * 400 + a.val, hp⟩ rfl, blk2_apply V c t k q]

/-- An index of the third support's array is in point `t`'s block iff each coordinate is in the block's range. -/
theorem mem_blk (t : Fin cfg2.N) (i : S10000x64.Idx) :
    i ∈ ((cfg2.win 4).blk t).view.set ↔ ∀ a : Fin 2, win2_4.index t a * S400x64.size a ≤ (i a).val
      ∧ (i a).val < win2_4.index t a * S400x64.size a + S400x64.size a := by
  show i ∈ ((View.whole main_v6).slice (win2_4.rect t)).set ↔ _
  rw [View.set_slice_whole, Rect.mem_set_unit]
  exact Iff.rfl

/-- After the region the third support's array is (adjacency · support) · weights: row `r` is written by point
    `r / 400`. -/
theorem final (c : Dev nD) :
    (dat2 V c).arrAt 4 cfg2.N = mm (mm (V c main_v4_1) (V c main_v4_0)) (V c main_v5) :=
  (dat2 V c).arrAt_eq_of_cover 4 _ (fun t _ => flushed_eq V c t) fun i => by
    have hN : cfg2.N = 25 := N_2
    have hi0 : (i 0).val < 10000 := (i 0).isLt
    have hi1 : (i 1).val < 64 := (i 1).isLt
    have hq : (i 0).val / 400 < cfg2.N := by rw [hN]; omega
    refine ⟨⟨(i 0).val / 400, hq⟩, flush2_4 _, ?_⟩
    rw [mem_blk]
    obtain ⟨-, -, -, -, -, -, e6, e7⟩ := idx ⟨(i 0).val / 400, hq⟩
    intro a
    match a with
    | ⟨0, _⟩ =>
      show win2_4.index ⟨(i 0).val / 400, hq⟩ (0 : Fin 2) * 400 ≤ (i 0).val
        ∧ (i 0).val < win2_4.index ⟨(i 0).val / 400, hq⟩ (0 : Fin 2) * 400 + 400
      rw [e6]; show (i 0).val / 400 * 400 ≤ (i 0).val ∧ (i 0).val < (i 0).val / 400 * 400 + 400; omega
    | ⟨1, _⟩ =>
      show win2_4.index ⟨(i 0).val / 400, hq⟩ (1 : Fin 2) * 64 ≤ (i 1).val
        ∧ (i 1).val < win2_4.index ⟨(i 0).val / 400, hq⟩ (1 : Fin 2) * 64 + 64
      omega

end Cert.KernelIdeal.KValue.R2

end
-- ==== Proof.K3.lean ====
/-
  Region 3, the last propagation: each grid point takes a block of 400 rows of the adjacency matrix and the whole third
  support and leaves, in the matching 400 rows of the embedding, their product. So after the region the embedding's
  array is the adjacency matrix times the third support, entry by entry.
-/
import proofs.«153249_g49400713838637_fold_wed_c4_295_9_alg».proof.Proof.Gen.KernelIdeal.Frame
import proofs.«153249_g49400713838637_fold_wed_c4_295_9_alg».proof.Proof.Spec
import proofs.«153249_g49400713838637_fold_wed_c4_295_9_alg».proof.Proof.LibDenseLayers
import Idealize.ShloMosaic.Lib.Pipeline.Value
import Idealize.ShloMosaic.Lib.ValueIdx

noncomputable section

namespace Cert.KernelIdeal.KValue.R3

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an entry: the row of the adjacency block times the column of the support. -/
theorem pay_apply (x0 : FVec Ideal S400x10000 .bf16) (x1 : FVec Ideal S10000x64 .bf16) (a : Fin 400) (b : Fin 64) :
    k3_pay1 (F := Ideal) x0 x1 (ix2 a b) = ∑ c : Fin 10000, x0 (ix2 a c) * x1 (ix2 c b) := by
  unfold k3_pay1
  rw [shapeCast_self, shapeCast_self]
  exact DenseLayers.matmul_rowcol_zero_apply (m := 400) (k := 10000) (n := 64)
    (dot_S400x10000_S10000x64_S400x64_1_0_0_1_n_n).wf none x0 x1 a b

/-- The printed index maps over the 25 grid points: the adjacency block and the output block move down with the point,
    the support stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `a` of the adjacency block at point `t` is row `400 t + a` of the adjacency array. -/
theorem blk0_apply (c : Dev nD) (t : Fin cfg3.N) (a : Fin 400) (k : Fin 10000) (p : Fin 10000)
    (hp : p.val = t.val * 400 + a.val) :
    (iblk3 V c 0 t : Vec Ideal S400x10000 .bf16) (ix2 a k) = V c main_v4_1 (ix2 p k) := by
  unfold iblk3
  rw [View.read_apply]
  show V c main_v4_1 (((cfg3.win 0).blk t).view.emb (ix2 a k)) = _
  refine congrArg _ (funext fun ax => Fin.ext ?_)
  obtain ⟨e0, e1, -⟩ := idx t
  match ax with
  | ⟨0, _⟩ => show win3_0.index t (0 : Fin 2) * 400 + 1 * a.val = p.val; omega
  | ⟨1, _⟩ => show win3_0.index t (1 : Fin 2) * 10000 + 1 * k.val = k.val; omega

/-- The support's block at every point is the whole support array. -/
theorem blk1_apply (c : Dev nD) (t : Fin cfg3.N) (k : Fin 10000) (b : Fin 64) :
    (iblk3 V c 1 t : Vec Ideal S10000x64 .bf16) (ix2 k b) = V c main_v6 (ix2 k b) := by
  unfold iblk3
  rw [View.read_apply]
  show V c main_v6 (((cfg3.win 1).blk t).view.emb (ix2 k b)) = _
  refine congrArg _ (funext fun ax => Fin.ext ?_)
  obtain ⟨-, -, e2, e3, -⟩ := idx t
  match ax with
  | ⟨0, _⟩ => show win3_1.index t (0 : Fin 2) * 10000 + 1 * k.val = k.val; omega
  | ⟨1, _⟩ => show win3_1.index t (1 : Fin 2) * 64 + 1 * b.val = b.val; omega

/-- What point `t` writes back is block `t` of the product of the adjacency array and the support array. -/
theorem flushed_eq (c : Dev nD) (t : Fin cfg3.N) :
    (dat3 V c).flushed 2 t
      = ((cfg3.win 2).blk t).view.read (Elt Ideal) (mm (V c main_v4_1) (V c main_v6)) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x64) hz]
  have hN : cfg3.N = 25 := N_3
  have ht : t.val < 25 := hN ▸ t.isLt
  obtain ⟨-, -, -, -, e4, e5⟩ := idx t
  funext j
  obtain ⟨a, b, rfl⟩ : ∃ (a : Fin 400) (b : Fin 64), j = ix2 a b := ⟨j 0, j 1, eq_ix2 j⟩
  have hp : t.val * 400 + a.val < 10000 := by have := a.isLt; omega
  have he : ((cfg3.win 2).blk t).view.emb (ix2 a b) = ix2 (⟨t.val * 400 + a.val, hp⟩ : Fin 10000) b := by
    funext ax; apply Fin.ext
    match ax with
    | ⟨0, _⟩ => show win3_2.index t (0 : Fin 2) * 400 + 1 * a.val = t.val * 400 + a.val; omega
    | ⟨1, _⟩ => show win3_2.index t (1 : Fin 2) * 64 + 1 * b.val = b.val; omega
  refine (pay_apply (iblk3 V c 0 t) (iblk3 V c 1 t) a b).trans ?_
  rw [View.read_apply, he, mm_apply]
  refine Finset.sum_congr rfl fun k _ => ?_
  rw [blk0_apply V c t a k ⟨t.val * 400 + a.val, hp⟩ rfl, blk1_apply V c t k b]

/-- An index of the embedding's array is in point `t`'s block iff each coordinate is in the block's range. -/
theorem mem_blk (t : Fin cfg3.N) (i : S10000x64.Idx) :
    i ∈ ((cfg3.win 2).blk t).view.set ↔ ∀ a : Fin 2, win3_2.index t a * S400x64.size a ≤ (i a).val
      ∧ (i a).val < win3_2.index t a * S400x64.size a + S400x64.size a := by
  show i ∈ ((View.whole main_v7).slice (win3_2.rect t)).set ↔ _
  rw [View.set_slice_whole, Rect.mem_set_unit]
  exact Iff.rfl

/-- After the region the embedding's array is the adjacency array times the support array: row `r` is written by
    point `r / 400`. -/
theorem final (c : Dev nD) : (dat3 V c).arrAt 2 cfg3.N = mm (V c main_v4_1) (V c main_v6) :=
  (dat3 V c).arrAt_eq_of_cover 2 _ (fun t _ => flushed_eq V c t) fun i => by
    have hN : cfg3.N = 25 := N_3
    have hi0 : (i 0).val < 10000 := (i 0).isLt
    have hi1 : (i 1).val < 64 := (i 1).isLt
    have hq : (i 0).val / 400 < cfg3.N := by rw [hN]; omega
    refine ⟨⟨(i 0).val / 400, hq⟩, flush3_2 _, ?_⟩
    rw [mem_blk]
    obtain ⟨-, -, -, -, e4, e5⟩ := idx ⟨(i 0).val / 400, hq⟩
    intro a
    match a with
    | ⟨0, _⟩ =>
      show win3_2.index ⟨(i 0).val / 400, hq⟩ (0 : Fin 2) * 400 ≤ (i 0).val
        ∧ (i 0).val < win3_2.index ⟨(i 0).val / 400, hq⟩ (0 : Fin 2) * 400 + 400
      rw [e4]; show (i 0).val / 400 * 400 ≤ (i 0).val ∧ (i 0).val < (i 0).val / 400 * 400 + 400; omega
    | ⟨1, _⟩ =>
      show win3_2.index ⟨(i 0).val / 400, hq⟩ (1 : Fin 2) * 64 ≤ (i 1).val
        ∧ (i 1).val < win3_2.index ⟨(i 0).val / 400, hq⟩ (1 : Fin 2) * 64 + 64
      omega

end Cert.KernelIdeal.KValue.R3

end
-- ==== Proof.K4.lean ====
/-
  Region 4, the Gram matrix: each grid point takes a block of 400 rows of the embedding and the whole transposed
  embedding and leaves, in the matching 400 rows of the reconstruction, the logistic function of their product. So
  after the region the reconstruction's array is, entry by entry, the logistic function of the product of the two
  arrays the region was given.
-/
import proofs.«153249_g49400713838637_fold_wed_c4_295_9_alg».proof.Proof.Gen.KernelIdeal.Frame
import proofs.«153249_g49400713838637_fold_wed_c4_295_9_alg».proof.Proof.Spec
import proofs.«153249_g49400713838637_fold_wed_c4_295_9_alg».proof.Proof.LibDenseLayers
import Idealize.ShloMosaic.Lib.Pipeline.Value
import Idealize.ShloMosaic.Lib.ValueIdx

noncomputable section

namespace Cert.KernelIdeal.KValue.R4

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an entry: the logistic function of a row of the block times a column of the second
    operand (the changes of format on the way into the product are the identity on the extended reals). -/
theorem pay_apply (x0 : FVec Ideal S400x64 .f32) (x1 : FVec Ideal S64x10000 .f32) (a : Fin 400) (b : Fin 10000) :
    k4_pay1 (F := Ideal) x0 x1 (ix2 a b) = Ideal.logistic (∑ c : Fin 64, x0 (ix2 a c) * x1 (ix2 c b)) := by
  unfold k4_pay1
  rw [shapeCast_self, shapeCast_self]
  show Ideal.logistic _ = _
  refine congrArg Ideal.logistic ?_
  exact DenseLayers.matmul_rowcol_zero_apply (m := 400) (k := 64) (n := 10000)
    (dot_S400x64_S64x10000_S400x10000_1_0_0_1_n_n).wf none x0 x1 a b

/-- The printed index maps over the 25 grid points: the embedding's block and the output block move down with the
    point, the transposed embedding stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `a` of the embedding's block at point `t` is row `400 t + a` of the embedding's array. -/
theorem blk0_apply (c : Dev nD) (t : Fin cfg4.N) (a : Fin 400) (k : Fin 64) (p : Fin 10000)
    (hp : p.val = t.val * 400 + a.val) :
    (iblk4 V c 0 t : Vec Ideal S400x64 .f32) (ix2 a k) = V c main_v7 (ix2 p k) := by
  unfold iblk4
  rw [View.read_apply]
  show V c main_v7 (((cfg4.win 0).blk t).view.emb (ix2 a k)) = _
  refine congrArg _ (funext fun ax => Fin.ext ?_)
  obtain ⟨e0, e1, -⟩ := idx t
  match ax with
  | ⟨0, _⟩ => show win4_0.index t (0 : Fin 2) * 400 + 1 * a.val = p.val; omega
  | ⟨1, _⟩ => show win4_0.index t (1 : Fin 2) * 64 + 1 * k.val = k.val; omega

/-- The second operand's block at every point is its whole array. -/
theorem blk1_apply (c : Dev nD) (t : Fin cfg4.N) (k : Fin 64) (b : Fin 10000) :
    (iblk4 V c 1 t : Vec Ideal S64x10000 .f32) (ix2 k b) = V c main_v8 (ix2 k b) := by
  unfold iblk4
  rw [View.read_apply]
  show V c main_v8 (((cfg4.win 1).blk t).view.emb (ix2 k b)) = _
  refine congrArg _ (funext fun ax => Fin.ext ?_)
  obtain ⟨-, -, e2, e3, -⟩ := idx t
  match ax with
  | ⟨0, _⟩ => show win4_1.index t (0 : Fin 2) * 64 + 1 * k.val = k.val; omega
  | ⟨1, _⟩ => show win4_1.index t (1 : Fin 2) * 10000 + 1 * b.val = b.val; omega

/-- The array the region leaves, as a function of the two arrays it was given. -/
def result (Z : Mat 10000 64) (Zt : Mat 64 10000) : Mat 10000 10000 := fun j => Ideal.logistic (mm Z Zt j)

/-- What point `t` writes back is block `t` of that function of the two arrays. -/
theorem flushed_eq (c : Dev nD) (t : Fin cfg4.N) :
    (dat4 V c).flushed 2 t
      = ((cfg4.win 2).blk t).view.read (Elt Ideal) (result (V c main_v7) (V c main_v8)) := by
  show (cfg4.win 2).cut (grid4.coords t) ((dat4 V c).after 2 t) = _
  rw [after4_2]
  unfold out4_2
  rw [View.canon_unit_zero hz]
  simp only [View.ld_unit_zero (S := S400x64) hz, View.ld_unit_zero (S := S64x10000) hz]
  have hN : cfg4.N = 25 := N_4
  have ht : t.val < 25 := hN ▸ t.isLt
  obtain ⟨-, -, -, -, e4, e5⟩ := idx t
  funext j
  obtain ⟨a, b, rfl⟩ : ∃ (a : Fin 400) (b : Fin 10000), j = ix2 a b := ⟨j 0, j 1, eq_ix2 j⟩
  have hp : t.val * 400 + a.val < 10000 := by have := a.isLt; omega
  have he : ((cfg4.win 2).blk t).view.emb (ix2 a b) = ix2 (⟨t.val * 400 + a.val, hp⟩ : Fin 10000) b := by
    funext ax; apply Fin.ext
    match ax with
    | ⟨0, _⟩ => show win4_2.index t (0 : Fin 2) * 400 + 1 * a.val = t.val * 400 + a.val; omega
    | ⟨1, _⟩ => show win4_2.index t (1 : Fin 2) * 10000 + 1 * b.val = b.val; omega
  refine (pay_apply (iblk4 V c 0 t) (iblk4 V c 1 t) a b).trans ?_
  rw [View.read_apply, he]
  show _ = Ideal.logistic (mm (V c main_v7) (V c main_v8) (ix2 (⟨t.val * 400 + a.val, hp⟩ : Fin 10000) b))
  rw [mm_apply]
  refine congrArg Ideal.logistic (Finset.sum_congr rfl fun k _ => ?_)
  rw [blk0_apply V c t a k ⟨t.val * 400 + a.val, hp⟩ rfl, blk1_apply V c t k b]

/-- An index of the reconstruction's array is in point `t`'s block iff each coordinate is in the block's range. -/
theorem mem_blk (t : Fin cfg4.N) (i : S10000x10000.Idx) :
    i ∈ ((cfg4.win 2).blk t).view.set ↔ ∀ a : Fin 2, win4_2.index t a * S400x10000.size a ≤ (i a).val
      ∧ (i a).val < win4_2.index t a * S400x10000.size a + S400x10000.size a := by
  show i ∈ ((View.whole main_v9).slice (win4_2.rect t)).set ↔ _
  rw [View.set_slice_whole, Rect.mem_set_unit]
  exact Iff.rfl

/-- After the region the reconstruction's array is that function of the two arrays: row `r` is written by point
    `r / 400`. -/
theorem final (c : Dev nD) : (dat4 V c).arrAt 2 cfg4.N = result (V c main_v7) (V c main_v8) :=
  (dat4 V c).arrAt_eq_of_cover 2 _ (fun t _ => flushed_eq V c t) fun i => by
    have hN : cfg4.N = 25 := N_4
    have hi0 : (i 0).val < 10000 := (i 0).isLt
    have hi1 : (i 1).val < 10000 := (i 1).isLt
    have hq : (i 0).val / 400 < cfg4.N := by rw [hN]; omega
    refine ⟨⟨(i 0).val / 400, hq⟩, flush4_2 _, ?_⟩
    rw [mem_blk]
    obtain ⟨-, -, -, -, e4, e5⟩ := idx ⟨(i 0).val / 400, hq⟩
    intro a
    match a with
    | ⟨0, _⟩ =>
      show win4_2.index ⟨(i 0).val / 400, hq⟩ (0 : Fin 2) * 400 ≤ (i 0).val
        ∧ (i 0).val < win4_2.index ⟨(i 0).val / 400, hq⟩ (0 : Fin 2) * 400 + 400
      rw [e4]; show (i 0).val / 400 * 400 ≤ (i 0).val ∧ (i 0).val < (i 0).val / 400 * 400 + 400; omega
    | ⟨1, _⟩ =>
      show win4_2.index ⟨(i 0).val / 400, hq⟩ (1 : Fin 2) * 10000 ≤ (i 1).val
        ∧ (i 1).val < win4_2.index ⟨(i 0).val / 400, hq⟩ (1 : Fin 2) * 10000 + 10000
      omega

end Cert.KernelIdeal.KValue.R4

end
-- ==== Proof.KFold.lean ====
/-
  The five regions put together. Between the launch and the return the program's buffers pass through nine boundaries:
  a host stretch applies its operations (two transposes and a reshape before the first region, one transpose before each
  of the second, third and fifth), and a region leaves its output arrays at what its grid points wrote and every other
  buffer as it was. Reading the last boundary back through that chain, with each region's arrays given by its own
  theorem, the first result is the adjacency matrix times the third support — the specification's embedding — and
  the second its logistic Gram matrix — the specification's reconstruction.
-/
import proofs.«153249_g49400713838637_fold_wed_c4_295_9_alg».proof.Proof.KRun
import proofs.«153249_g49400713838637_fold_wed_c4_295_9_alg».proof.Proof.K0
import proofs.«153249_g49400713838637_fold_wed_c4_295_9_alg».proof.Proof.K1
import proofs.«153249_g49400713838637_fold_wed_c4_295_9_alg».proof.Proof.K2
import proofs.«153249_g49400713838637_fold_wed_c4_295_9_alg».proof.Proof.K3
import proofs.«153249_g49400713838637_fold_wed_c4_295_9_alg».proof.Proof.K4
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.Gcn

/-- A host transpose of a matrix is the specification's transpose. -/
theorem transpose_eq_tr {a b : ℕ} (L : Mat a b)
    (h : (⟨2, ![a, b]⟩ : Shape).Transposes ([1, 0] : List (Fin 2)) ⟨2, ![b, a]⟩) :
    transpose ⟨2, ![b, a]⟩ ([1, 0] : List (Fin 2)) L h = tr L := by
  funext j
  obtain ⟨p, q, rfl⟩ : ∃ (p : Fin b) (q : Fin a), j = ix2 p q := ⟨j 0, j 1, eq_ix2 j⟩
  refine (transpose_apply ([1, 0] : List (Fin 2)) L h (ix2 p q) (ix2 q p) fun ax => ?_).trans rfl
  match ax with
  | ⟨0, _⟩ => rfl
  | ⟨1, _⟩ => rfl

variable (m : (ℓ : Loc nD τ sig) → Buf (Elt Ideal) ℓ) (ρ : Dev nD → PrngReg) (c : Dev nD)

/-! ## Before the first region: the flag reshaped, the first weights transposed -/

theorem w1_v0 : W1 m ρ c (Proc.devRef .tc main_v0) (ix2 0 0) = m ((c.tc : Thread nD τ).loc main_arg2) ix0 := by
  show StableHlo.after hostOps0 (W0 m ρ c) (Proc.devRef .tc main_v0) (ix2 0 0) = _
  after_results
  show shapeCast S1x1 (m ((c.tc : Thread nD τ).loc main_arg2)) _ (ix2 0 0) = _
  unfold shapeCast
  exact congrArg _ (funext fun ax => ax.elim0)

theorem w1_v1 : W1 m ρ c (Proc.devRef .tc main_v1) = tr (m ((c.tc : Thread nD τ).loc main_arg3)) := by
  show StableHlo.after hostOps0 (W0 m ρ c) (Proc.devRef .tc main_v1) = _
  after_results
  exact transpose_eq_tr _ _

theorem w1_arg0 : W1 m ρ c (Proc.devRef .tc main_arg0) = m ((c.tc : Thread nD τ).loc main_arg0) := by
  show StableHlo.after hostOps0 (W0 m ρ c) (Proc.devRef .tc main_arg0) = _
  after_results

theorem w1_arg1 : W1 m ρ c (Proc.devRef .tc main_arg1) = m ((c.tc : Thread nD τ).loc main_arg1) := by
  show StableHlo.after hostOps0 (W0 m ρ c) (Proc.devRef .tc main_arg1) = _
  after_results

theorem w1_arg4 : W1 m ρ c (Proc.devRef .tc main_arg4) = m ((c.tc : Thread nD τ).loc main_arg4) := by
  show StableHlo.after hostOps0 (W0 m ρ c) (Proc.devRef .tc main_arg4) = _
  after_results

theorem w1_arg5 : W1 m ρ c (Proc.devRef .tc main_arg5) = m ((c.tc : Thread nD τ).loc main_arg5) := by
  show StableHlo.after hostOps0 (W0 m ρ c) (Proc.devRef .tc main_arg5) = _
  after_results

/-! ## After the first region: the first support -/

/-- The gated product as the first region states it is the specification's first support. -/
theorem result0_eq (act' : (⟨2, ![1, 1]⟩ : Shape).Idx → BitVec 32) (act : (⟨0, ![]⟩ : Shape).Idx → BitVec 32)
    (hact : act' (ix2 0 0) = act ix0) (X : Mat 10000 128) (W1 : Mat 256 128) :
    R0.result act' X (tr W1) = support1 (flag act) X W1 := by
  unfold R0.result support1
  rw [flag_eq act _ hact]

theorem w2_v2 : W2 m ρ c (Proc.devRef .tc main_v2)
    = support1 (flag (m ((c.tc : Thread nD τ).loc main_arg2))) (m ((c.tc : Thread nD τ).loc main_arg0))
        (m ((c.tc : Thread nD τ).loc main_arg3)) := by
  refine (W2_arr m ρ c 3).trans ((R0.final (V1 m ρ) c).trans ?_)
  show R0.result (W1 m ρ c (Proc.devRef .tc main_v0)) (W1 m ρ c (Proc.devRef .tc main_arg0))
    (W1 m ρ c (Proc.devRef .tc main_v1)) = _
  rw [w1_arg0, w1_v1]
  exact result0_eq _ _ (w1_v0 m ρ c) _ _

theorem w2_v0 : W2 m ρ c (Proc.devRef .tc main_v0) (ix2 0 0) = m ((c.tc : Thread nD τ).loc main_arg2) ix0 := by
  have e : W2 m ρ c (Proc.devRef .tc main_v0) = W1 m ρ c (Proc.devRef .tc main_v0) :=
    (W2_arr m ρ c 0).trans (((dat0 (V1 m ρ) c).arrAt_in 0 rfl _).trans (A_eq0 (V1 m ρ) c 0))
  rw [e]; exact w1_v0 m ρ c

theorem w2_arg1 : W2 m ρ c (Proc.devRef .tc main_arg1) = m ((c.tc : Thread nD τ).loc main_arg1) :=
  (W2_of_ne m ρ c main_arg1 (by decide)).trans (w1_arg1 m ρ c)

theorem w2_arg4 : W2 m ρ c (Proc.devRef .tc main_arg4) = m ((c.tc : Thread nD τ).loc main_arg4) :=
  (W2_of_ne m ρ c main_arg4 (by decide)).trans (w1_arg4 m ρ c)

theorem w2_arg5 : W2 m ρ c (Proc.devRef .tc main_arg5) = m ((c.tc : Thread nD τ).loc main_arg5) :=
  (W2_of_ne m ρ c main_arg5 (by decide)).trans (w1_arg5 m ρ c)

/-! ## Before the second region: the second weights transposed -/

theorem w3_v3 : W3 m ρ c (Proc.devRef .tc main_v3) = tr (m ((c.tc : Thread nD τ).loc main_arg4)) := by
  show StableHlo.after hostOps1 (W2 m ρ c) (Proc.devRef .tc main_v3) = _
  after_results
  rw [w2_arg4]
  exact transpose_eq_tr _ _

theorem w3_v0 : W3 m ρ c (Proc.devRef .tc main_v0) (ix2 0 0) = m ((c.tc : Thread nD τ).loc main_arg2) ix0 := by
  show StableHlo.after hostOps1 (W2 m ρ c) (Proc.devRef .tc main_v0) (ix2 0 0) = _
  after_results
  exact w2_v0 m ρ c

theorem w3_arg1 : W3 m ρ c (Proc.devRef .tc main_arg1) = m ((c.tc : Thread nD τ).loc main_arg1) := by
  show StableHlo.after hostOps1 (W2 m ρ c) (Proc.devRef .tc main_arg1) = _
  after_results
  exact w2_arg1 m ρ c

theorem w3_v2 : W3 m ρ c (Proc.devRef .tc main_v2)
    = support1 (flag (m ((c.tc : Thread nD τ).loc main_arg2))) (m ((c.tc : Thread nD τ).loc main_arg0))
        (m ((c.tc : Thread nD τ).loc main_arg3)) := by
  show StableHlo.after hostOps1 (W2 m ρ c) (Proc.devRef .tc main_v2) = _
  after_results
  exact w2_v2 m ρ c

theorem w3_arg5 : W3 m ρ c (Proc.devRef .tc main_arg5) = m ((c.tc : Thread nD τ).loc main_arg5) := by
  show StableHlo.after hostOps1 (W2 m ρ c) (Proc.devRef .tc main_arg5) = _
  after_results
  exact w2_arg5 m ρ c

/-! ## After the second region: the second support, and the adjacency matrix again -/

/-- The gated product as the second region states it is the specification's second support. -/
theorem result1_eq (act' : (⟨2, ![1, 1]⟩ : Shape).Idx → BitVec 32) (act : (⟨0, ![]⟩ : Shape).Idx → BitVec 32)
    (hact : act' (ix2 0 0) = act ix0) (A : Mat 10000 10000) (S : Mat 10000 256) (W2 : Mat 128 256) :
    R1.result act' A S (tr W2) = support2 (flag act) A S W2 := by
  unfold R1.result support2
  rw [flag_eq act _ hact]

/-- The second support in full, of the arguments. -/
abbrev S2 : Mat 10000 128 :=
  support2 (flag (m ((c.tc : Thread nD τ).loc main_arg2))) (m ((c.tc : Thread nD τ).loc main_arg1))
    (support1 (flag (m ((c.tc : Thread nD τ).loc main_arg2))) (m ((c.tc : Thread nD τ).loc main_arg0))
      (m ((c.tc : Thread nD τ).loc main_arg3)))
    (m ((c.tc : Thread nD τ).loc main_arg4))

theorem w4_v4_0 : W4 m ρ c (Proc.devRef .tc main_v4_0) = S2 m c := by
  refine (W4_arr m ρ c 4).trans ((R1.final4 (V3 m ρ) c).trans ?_)
  show R1.result (W3 m ρ c (Proc.devRef .tc main_v0)) (W3 m ρ c (Proc.devRef .tc main_arg1))
    (W3 m ρ c (Proc.devRef .tc main_v2)) (W3 m ρ c (Proc.devRef .tc main_v3)) = _
  rw [w3_arg1, w3_v2, w3_v3]
  exact result1_eq _ _ (w3_v0 m ρ c) _ _ _

theorem w4_v4_1 : W4 m ρ c (Proc.devRef .tc main_v4_1) = m ((c.tc : Thread nD τ).loc main_arg1) := by
  refine (W4_arr m ρ c 5).trans ((R1.final5 (V3 m ρ) c).trans ?_)
  exact w3_arg1 m ρ c

theorem w4_arg5 : W4 m ρ c (Proc.devRef .tc main_arg5) = m ((c.tc : Thread nD τ).loc main_arg5) :=
  (W4_of_ne m ρ c main_arg5 (by decide)).trans (w3_arg5 m ρ c)

/-! ## Before the third region: the third weights transposed -/

theorem w5_v5 : W5 m ρ c (Proc.devRef .tc main_v5) = tr (m ((c.tc : Thread nD τ).loc main_arg5)) := by
  show StableHlo.after hostOps2 (W4 m ρ c) (Proc.devRef .tc main_v5) = _
  after_results
  rw [w4_arg5]
  exact transpose_eq_tr _ _

theorem w5_v4_0 : W5 m ρ c (Proc.devRef .tc main_v4_0) = S2 m c := by
  show StableHlo.after hostOps2 (W4 m ρ c) (Proc.devRef .tc main_v4_0) = _
  after_results
  exact w4_v4_0 m ρ c

theorem w5_v4_1 : W5 m ρ c (Proc.devRef .tc main_v4_1) = m ((c.tc : Thread nD τ).loc main_arg1) := by
  show StableHlo.after hostOps2 (W4 m ρ c) (Proc.devRef .tc main_v4_1) = _
  after_results
  exact w4_v4_1 m ρ c

/-! ## After the third and fourth regions: the third support, then the embedding -/

theorem w6_v6 : W6 m ρ c (Proc.devRef .tc main_v6)
    = support3 (m ((c.tc : Thread nD τ).loc main_arg1)) (S2 m c) (m ((c.tc : Thread nD τ).loc main_arg5)) := by
  refine (W6_arr m ρ c 4).trans ((R2.final (V5 m ρ) c).trans ?_)
  show mm (mm (W5 m ρ c (Proc.devRef .tc main_v4_1)) (W5 m ρ c (Proc.devRef .tc main_v4_0)))
    (W5 m ρ c (Proc.devRef .tc main_v5)) = _
  rw [w5_v4_1, w5_v4_0, w5_v5]
  rfl

theorem w6_v4_1 : W6 m ρ c (Proc.devRef .tc main_v4_1) = m ((c.tc : Thread nD τ).loc main_arg1) :=
  ((W6_arr m ρ c 1).trans (((dat2 (V5 m ρ) c).arrAt_in 1 rfl _).trans (A_eq2 (V5 m ρ) c 1))).trans (w5_v4_1 m ρ c)

theorem w7_v7 : W7 m ρ c (Proc.devRef .tc main_v7)
    = embedding (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W7_arr m ρ c 2).trans ((R3.final (V6 m ρ) c).trans ?_)
  show mm (W6 m ρ c (Proc.devRef .tc main_v4_1)) (W6 m ρ c (Proc.devRef .tc main_v6)) = _
  rw [w6_v4_1, w6_v6]
  rfl

/-! ## Before and after the last region: the embedding transposed, then the reconstruction -/

theorem w8_v7 : W8 m ρ c (Proc.devRef .tc main_v7) = W7 m ρ c (Proc.devRef .tc main_v7) := by
  show StableHlo.after hostOps4 (W7 m ρ c) (Proc.devRef .tc main_v7) = _
  after_results

theorem w8_v8 : W8 m ρ c (Proc.devRef .tc main_v8) = tr (W7 m ρ c (Proc.devRef .tc main_v7)) := by
  show StableHlo.after hostOps4 (W7 m ρ c) (Proc.devRef .tc main_v8) = _
  after_results
  exact transpose_eq_tr _ _

/-- THE FIRST RESULT at the last boundary is the specification's embedding. -/
theorem w9_v7 : W9 m ρ c (Proc.devRef .tc main_v7)
    = embedding (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  ((W9_arr m ρ c 0).trans (((dat4 (V8 m ρ) c).arrAt_in 0 rfl _).trans (A_eq4 (V8 m ρ) c 0))).trans
    ((w8_v7 m ρ c).trans (w7_v7 m ρ c))

/-- THE SECOND RESULT at the last boundary is the specification's reconstruction. -/
theorem w9_v9 : W9 m ρ c (Proc.devRef .tc main_v9)
    = reconstruction (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W9_arr m ρ c 2).trans ((R4.final (V8 m ρ) c).trans ?_)
  show R4.result (W8 m ρ c (Proc.devRef .tc main_v7)) (W8 m ρ c (Proc.devRef .tc main_v8)) = _
  rw [w8_v8, w8_v7, w7_v7]
  rfl

/-! ## The kernel's run, read -/

/-- Every weakly fair execution of the idealized kernel terminates, nothing faulting, with the first result at the
    specification's embedding of the arguments, the second at its reconstruction, and the arguments unchanged. -/
theorem run (ρ' : Dev nD → PrngReg) :
    θ_run (defs (F := Ideal)) (onTc (τ := τ) (main (F := Ideal))) ⟨m, fun _ => 0, ρ'⟩ (fun r => ∀ c : Dev nD,
      r.2.mem ((c.tc : Thread nD τ).loc main_v7)
        = Cert.Gcn.embedding (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v9)
        = Cert.Gcn.reconstruction (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans (w9_v7 m ρ' c), (h c).2.1.trans (w9_v9 m ρ' c), (h c).2.2⟩)
    (run_named m ρ')

end Cert.KernelIdeal.KValue

end
-- ==== Proof.RefRun.lean ====
/-
  The reference program's run, read back. Its @main is a straight line of thirty-nine host operations once each
  called function's body stands at its call site over that call's buffers: the flag's comparison, three rounds of
  "transpose the weights, multiply, (rectify under the flag,) multiply by the adjacency matrix", the last product,
  and the logistic function of the Gram matrix spelt in the host's negate, exponential, add and divide.
  Every weakly fair execution terminates with each of the two results at the composition of those operations over
  the argument arrays, the arguments unchanged. The composition is stated stage by stage, one definition per stage
  of the mathematics.
-/
import proofs.«153249_g49400713838637_fold_wed_c4_295_9_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's thirty-nine operations, in order; a called function's operations stand in its call's place, over that
    call's buffers. -/
abbrev ops : List (HloOp τ sig (Elt F)) :=
  [ nullary main_c (constantI S_ 32 0#32),
    binary main_arg2 main_c main_v0 (cmpi .ne : (⟨S_, .i32⟩ : BufTy).Contents (Elt F) → (⟨S_, .i32⟩ : BufTy).Contents (Elt F) → (⟨S_, .i1⟩ : BufTy).Contents (Elt F)),
    unary main_arg3 main_v1 ((transpose S128x256 [1, 0] · transposes_S256x128_S128x256_1_0) : (⟨S256x128, .f32⟩ : BufTy).Contents (Elt F) → (⟨S128x256, .f32⟩ : BufTy).Contents (Elt F)),
    binary main_arg0 main_v1 main_v2 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    nullary main_cst (constant S_ .f32 0x3C23D70A#32),
    TRef.nullary main_call0.cst (constant S_ .f32 0x00000000#32),
    TRef.unary main_call0.cst main_call0.v0 (broadcastInDim S10000x256 ![] bcast_S_S10000x256),
    TRef.binary (TRef.of (T := ⟨S10000x256, .f32⟩) main_v2) main_call0.v0 main_call0.v1 (cmpf .oge),
    TRef.unary (TRef.of (T := ⟨S_, .f32⟩) main_cst) main_call0.v2 id,
    TRef.unary main_call0.v2 main_call0.v3 (broadcastInDim S10000x256 ![] bcast_S_S10000x256),
    TRef.binary main_call0.v3 (TRef.of (T := ⟨S10000x256, .f32⟩) main_v2) main_call0.v4 mulf,
    TRef.ternary main_call0.v1 (TRef.of (T := ⟨S10000x256, .f32⟩) main_v2) main_call0.v4 main_call0.call0.v0 select,
    TRef.ternary (TRef.of (T := ⟨S_, .i1⟩) main_v0) (TRef.of (T := ⟨S10000x256, .f32⟩) main_v3) (TRef.of (T := ⟨S10000x256, .f32⟩) main_v2) main_call1.v0 (fun p a b => select (broadcastInDim S10000x256 ![] bcast_S_S10000x256 p) a b),
    binary main_arg1 main_v4 main_v5 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg4 main_v6 ((transpose S256x128 [1, 0] · transposes_S128x256_S256x128_1_0) : (⟨S128x256, .f32⟩ : BufTy).Contents (Elt F) → (⟨S256x128, .f32⟩ : BufTy).Contents (Elt F)),
    binary main_v5 main_v6 main_v7 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    nullary main_cst_0 (constant S_ .f32 0x3C23D70A#32),
    TRef.nullary main_call2.cst (constant S_ .f32 0x00000000#32),
    TRef.unary main_call2.cst main_call2.v0 (broadcastInDim S10000x128 ![] bcast_S_S10000x128),
    TRef.binary (TRef.of (T := ⟨S10000x128, .f32⟩) main_v7) main_call2.v0 main_call2.v1 (cmpf .oge),
    TRef.unary (TRef.of (T := ⟨S_, .f32⟩) main_cst_0) main_call2.v2 id,
    TRef.unary main_call2.v2 main_call2.v3 (broadcastInDim S10000x128 ![] bcast_S_S10000x128),
    TRef.binary main_call2.v3 (TRef.of (T := ⟨S10000x128, .f32⟩) main_v7) main_call2.v4 mulf,
    TRef.ternary main_call2.v1 (TRef.of (T := ⟨S10000x128, .f32⟩) main_v7) main_call2.v4 main_call2.call0.v0 select,
    TRef.ternary (TRef.of (T := ⟨S_, .i1⟩) main_v0) (TRef.of (T := ⟨S10000x128, .f32⟩) main_v8) (TRef.of (T := ⟨S10000x128, .f32⟩) main_v7) main_call3.v0 (fun p a b => select (broadcastInDim S10000x128 ![] bcast_S_S10000x128 p) a b),
    binary main_arg1 main_v9 main_v10 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v11 ((transpose S128x64 [1, 0] · transposes_S64x128_S128x64_1_0) : (⟨S64x128, .f32⟩ : BufTy).Contents (Elt F) → (⟨S128x64, .f32⟩ : BufTy).Contents (Elt F)),
    binary main_v10 main_v11 main_v12 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v12 main_v13 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_v13 main_v14 ((transpose S64x10000 [1, 0] · transposes_S10000x64_S64x10000_1_0) : (⟨S10000x64, .f32⟩ : BufTy).Contents (Elt F) → (⟨S64x10000, .f32⟩ : BufTy).Contents (Elt F)),
    binary main_v13 main_v14 main_v15 ((fun l r => Host.dotGeneral dot_S10000x64_S64x10000_S10000x10000_1_0_0_1_n_n none l r) : (⟨S10000x64, .f32⟩ : BufTy).Contents (Elt F) → (⟨S64x10000, .f32⟩ : BufTy).Contents (Elt F) → (⟨S10000x10000, .f32⟩ : BufTy).Contents (Elt F)),
    unary main_v15 main_v16 (Host.negf : (⟨S10000x10000, .f32⟩ : BufTy).Contents (Elt F) → (⟨S10000x10000, .f32⟩ : BufTy).Contents (Elt F)),
    unary main_v16 main_v17 (Host.exp : (⟨S10000x10000, .f32⟩ : BufTy).Contents (Elt F) → (⟨S10000x10000, .f32⟩ : BufTy).Contents (Elt F)),
    nullary main_cst_1 (constant S_ .f32 0x3F800000#32),
    unary main_cst_1 main_v18 (broadcastInDim S10000x10000 ![] bcast_S_S10000x10000 : (⟨S_, .f32⟩ : BufTy).Contents (Elt F) → (⟨S10000x10000, .f32⟩ : BufTy).Contents (Elt F)),
    binary main_v18 main_v17 main_v19 (addf : (⟨S10000x10000, .f32⟩ : BufTy).Contents (Elt F) → (⟨S10000x10000, .f32⟩ : BufTy).Contents (Elt F) → (⟨S10000x10000, .f32⟩ : BufTy).Contents (Elt F)),
    nullary main_cst_2 (constant S_ .f32 0x3F800000#32),
    unary main_cst_2 main_v20 (broadcastInDim S10000x10000 ![] bcast_S_S10000x10000 : (⟨S_, .f32⟩ : BufTy).Contents (Elt F) → (⟨S10000x10000, .f32⟩ : BufTy).Contents (Elt F)),
    binary main_v20 main_v19 main_v21 (Host.divf : (⟨S10000x10000, .f32⟩ : BufTy).Contents (Elt F) → (⟨S10000x10000, .f32⟩ : BufTy).Contents (Elt F) → (⟨S10000x10000, .f32⟩ : BufTy).Contents (Elt F)) ]

set_option maxRecDepth 4096 in
/-- @main is that straight line: the functions' definitions unfolded at their calls and the records at their fields,
    both sides are one chain of steps once sequencing is reassociated. -/
theorem main_eq (c : Dev nD) : main (F := F) c = seq ops := by
  simp only [main, fn_leaky_relu.body, fn_where.body, fn_where_0.body, fn_leaky_relu_1.body, fn_where_2.body,
    fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops_sub : (ops : List (HloOp τ sig (Elt F))).Forall fun op => op.bufs ⊆ tcRefs τ sig :=
  ⟨nullary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., ternary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., ternary_bufs_sub .., binary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

end Line

/-! ## The composition, stage by stage -/

/-- The flag: the integer argument compared with zero, "not equal". -/
def flagT (act : IVec S_ 32) : IVec S_ 1 :=
  cmpi .ne act (constantI S_ 32 0#32)

/-- The rectifier under the flag, on an array of any shape `S`: where the scalar flag (read at every entry) is on,
    the entry itself where it is at least zero and the slope times it elsewhere; where the flag is off, the entry. -/
def gateT (S : Shape) (h : S_.BroadcastsInDim S (![] : Fin 0 → Fin S.rank)) (p : IVec S_ 1)
    (x : FVec Ideal S .f32) : FVec Ideal S .f32 :=
  select (broadcastInDim S ![] h p)
    (select (cmpf .oge x (broadcastInDim S ![] h (constant (F := Ideal) S_ .f32 0x00000000#32))) x
      (mulf (broadcastInDim S ![] h (id (constant (F := Ideal) S_ .f32 0x3C23D70A#32))) x))
    x

/-- The first support: the features times the first weights' transpose, rectified under the flag. -/
def stage1 (p : IVec S_ 1) (X : FVec Ideal S10000x128 .f32) (W1 : FVec Ideal S256x128 .f32) : FVec Ideal S10000x256 .f32 :=
  gateT S10000x256 bcast_S_S10000x256 p
    (Host.dotGeneral (F := Ideal) dot_S10000x128_S128x256_S10000x256_1_0_0_1_n_n none X
      (transpose S128x256 [1, 0] W1 transposes_S256x128_S128x256_1_0))

/-- The second support: the adjacency matrix times the first support, times the second weights' transpose, rectified
    under the flag. -/
def stage2 (p : IVec S_ 1) (A : FVec Ideal S10000x10000 .f32) (S1 : FVec Ideal S10000x256 .f32) (W2 : FVec Ideal S128x256 .f32) :
    FVec Ideal S10000x128 .f32 :=
  gateT S10000x128 bcast_S_S10000x128 p
    (Host.dotGeneral (F := Ideal) dot_S10000x256_S256x128_S10000x128_1_0_0_1_n_n none
      (Host.dotGeneral (F := Ideal) dot_S10000x10000_S10000x256_S10000x256_1_0_0_1_n_n none A S1)
      (transpose S256x128 [1, 0] W2 transposes_S128x256_S256x128_1_0))

/-- The third support: the adjacency matrix times the second support, times the third weights' transpose. -/
def stage3 (A : FVec Ideal S10000x10000 .f32) (S2 : FVec Ideal S10000x128 .f32) (W3 : FVec Ideal S64x128 .f32) : FVec Ideal S10000x64 .f32 :=
  Host.dotGeneral (F := Ideal) dot_S10000x128_S128x64_S10000x64_1_0_0_1_n_n none
    (Host.dotGeneral (F := Ideal) dot_S10000x10000_S10000x128_S10000x128_1_0_0_1_n_n none A S2)
    (transpose S128x64 [1, 0] W3 transposes_S64x128_S128x64_1_0)

/-- The embedding: the adjacency matrix times the third support. -/
def stage4 (A : FVec Ideal S10000x10000 .f32) (S3 : FVec Ideal S10000x64 .f32) : FVec Ideal S10000x64 .f32 :=
  Host.dotGeneral (F := Ideal) dot_S10000x10000_S10000x64_S10000x64_1_0_0_1_n_n none A S3

/-- The reconstruction: one over one plus the exponential of minus the Gram matrix of the embedding's rows. -/
def stage5 (Z : FVec Ideal S10000x64 .f32) : FVec Ideal S10000x10000 .f32 :=
  Host.divf (F := Ideal) (broadcastInDim S10000x10000 ![] bcast_S_S10000x10000 (constant (F := Ideal) S_ .f32 0x3F800000#32))
    (addf (broadcastInDim S10000x10000 ![] bcast_S_S10000x10000 (constant (F := Ideal) S_ .f32 0x3F800000#32))
      (Host.exp (F := Ideal) (Host.negf (F := Ideal)
        (Host.dotGeneral (F := Ideal) dot_S10000x64_S64x10000_S10000x10000_1_0_0_1_n_n none Z
          (transpose S64x10000 [1, 0] Z transposes_S10000x64_S64x10000_1_0)))))

/-- The first result, from the six arguments. -/
def embeddingT (X : FVec Ideal S10000x128 .f32) (A : FVec Ideal S10000x10000 .f32) (act : IVec S_ 32)
    (W1 : FVec Ideal S256x128 .f32) (W2 : FVec Ideal S128x256 .f32) (W3 : FVec Ideal S64x128 .f32) : FVec Ideal S10000x64 .f32 :=
  stage4 A (stage3 A (stage2 (flagT act) A (stage1 (flagT act) X W1) W2) W3)

/-- The second result, from the six arguments. -/
def reconstructionT (X : FVec Ideal S10000x128 .f32) (A : FVec Ideal S10000x10000 .f32) (act : IVec S_ 32)
    (W1 : FVec Ideal S256x128 .f32) (W2 : FVec Ideal S128x256 .f32) (W3 : FVec Ideal S64x128 .f32) : FVec Ideal S10000x10000 .f32 :=
  stage5 (embeddingT X A act W1 W2 W3)

/-! ## The run -/

set_option maxRecDepth 100000 in
set_option maxHeartbeats 4000000 in
/-- What the line leaves at the first result's buffer. -/
theorem after_v13 (V : Valuation τ sig (Elt Ideal)) :
    after (ops (F := Ideal)) V (main_v13 : DevRef τ sig)
      = embeddingT (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 100000 in
set_option maxHeartbeats 4000000 in
/-- What the line leaves at the second result's buffer. -/
theorem after_v21 (V : Valuation τ sig (Elt Ideal)) :
    after (ops (F := Ideal)) V (main_v21 : DevRef τ sig)
      = reconstructionT (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

set_option maxRecDepth 100000 in
set_option maxHeartbeats 4000000 in
/-- No operation of the line writes argument 0: its buffer holds at the end what it held at the start. -/
theorem after_arg0 (V : Valuation τ sig (Elt Ideal)) :
    after (ops (F := Ideal)) V (main_arg0 : DevRef τ sig) = V (main_arg0 : DevRef τ sig) := by
  after_results_simp

set_option maxRecDepth 100000 in
set_option maxHeartbeats 4000000 in
/-- No operation of the line writes argument 1: its buffer holds at the end what it held at the start. -/
theorem after_arg1 (V : Valuation τ sig (Elt Ideal)) :
    after (ops (F := Ideal)) V (main_arg1 : DevRef τ sig) = V (main_arg1 : DevRef τ sig) := by
  after_results_simp

set_option maxRecDepth 100000 in
set_option maxHeartbeats 4000000 in
/-- No operation of the line writes argument 2: its buffer holds at the end what it held at the start. -/
theorem after_arg2 (V : Valuation τ sig (Elt Ideal)) :
    after (ops (F := Ideal)) V (main_arg2 : DevRef τ sig) = V (main_arg2 : DevRef τ sig) := by
  after_results_simp

set_option maxRecDepth 100000 in
set_option maxHeartbeats 4000000 in
/-- No operation of the line writes argument 3: its buffer holds at the end what it held at the start. -/
theorem after_arg3 (V : Valuation τ sig (Elt Ideal)) :
    after (ops (F := Ideal)) V (main_arg3 : DevRef τ sig) = V (main_arg3 : DevRef τ sig) := by
  after_results_simp

set_option maxRecDepth 100000 in
set_option maxHeartbeats 4000000 in
/-- No operation of the line writes argument 4: its buffer holds at the end what it held at the start. -/
theorem after_arg4 (V : Valuation τ sig (Elt Ideal)) :
    after (ops (F := Ideal)) V (main_arg4 : DevRef τ sig) = V (main_arg4 : DevRef τ sig) := by
  after_results_simp

set_option maxRecDepth 100000 in
set_option maxHeartbeats 4000000 in
/-- No operation of the line writes argument 5: its buffer holds at the end what it held at the start. -/
theorem after_arg5 (V : Valuation τ sig (Elt Ideal)) :
    after (ops (F := Ideal)) V (main_arg5 : DevRef τ sig) = V (main_arg5 : DevRef τ sig) := by
  after_results_simp

/-- On the one device, at the ideal values, from any memory with zero counters: every weakly fair execution of @main
    terminates with the first result at the embedding's composition of the arguments, the second at the
    reconstruction's, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
        = embeddingT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v21)
        = reconstructionT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v13).trans (after_v13 _), (h c main_v21).trans (after_v21 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_seq scopedRefs_eq scopedSems_eq defs main (fun _ => ops) main_eq (fun _ => ops_sub) m ρ)

end Cert.ReferenceIdeal.RefRun

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.RefValue.lean ====
/-
  The reference program's two results are the specification's embedding and reconstruction.

  The run leaves each result at the composition of the program's operations over the argument arrays, stated stage by
  stage. Entry by entry each stage is the specification's: a transpose with the axes exchanged reads the operand at the
  exchanged index; a row-by-column product reads the sum over the contracted coordinate of the products of the entries;
  the rectifier under the scalar flag reads, at every entry, the flag at the scalar's one index, the comparison with
  zero and the product with the slope at that entry, the same two words on both sides; and one over one plus the
  exponential of the negation, the word for one denoting the number one, is the logistic function. No step asks the
  entries to be finite.
-/
import proofs.«153249_g49400713838637_fold_wed_c4_295_9_alg».proof.Proof.RefRun
import proofs.«153249_g49400713838637_fold_wed_c4_295_9_alg».proof.Proof.Spec
import proofs.«153249_g49400713838637_fold_wed_c4_295_9_alg».proof.Proof.LibHostMatmul
import Idealize.ShloMosaic.Lib.Pipeline.Value
import Idealize.ShloMosaic.Lib.ValueIdx
import Idealize.ShloMosaic.Lib.IdealHost

noncomputable section

namespace Cert.ReferenceIdeal.RefValue

open Idealize.ShloMosaic Idealize.SL.Sem Cert.ReferenceIdeal Cert.ReferenceIdeal.Gen
open Idealize.ShloMosaic.ValueIdx Idealize.ShloMosaic.DenseLayers Cert.ReferenceIdeal.RefRun

/-! ## Transposes and products -/

/-- A transpose of a matrix, read entry by entry, is the specification's transpose. -/
theorem transpose_eq_tr {m k : ℕ} (x : FVec Ideal ⟨2, ![m, k]⟩ .f32)
    (h : (⟨2, ![m, k]⟩ : Shape).Transposes [1, 0] ⟨2, ![k, m]⟩) :
    transpose ⟨2, ![k, m]⟩ [1, 0] x h = Cert.Gcn.tr x := by
  funext j
  obtain ⟨a, b, rfl⟩ : ∃ a b, j = ix2 a b := ⟨j 0, j 1, ValueIdx.eq_ix2 j⟩
  exact transpose_apply [1, 0] x h (ix2 a b) (ix2 b a) (fun c => by match c with | ⟨0, _⟩ => rfl | ⟨1, _⟩ => rfl)

/-- A row-by-column host product, read entry by entry, is the specification's product. -/
theorem dot_eq_mm {m k n : ℕ} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (A : FVec Ideal ⟨2, ![m, k]⟩ .f32) (B : FVec Ideal ⟨2, ![k, n]⟩ .f32) :
    Host.dotGeneral (F := Ideal) d none A B = Cert.Gcn.mm A B := by
  subst hd
  funext j
  obtain ⟨a, b, rfl⟩ : ∃ a b, j = ix2 a b := ⟨j 0, j 1, ValueIdx.eq_ix2 j⟩
  exact (dotGeneral_rowcol_apply w none A B a b).trans (Cert.Gcn.mm_apply A B a b).symm

/-- The program's product of a `10000x128` by a `128x256` matrix is the specification's. -/
theorem mm_1 (A : FVec Ideal S10000x128 .f32) (B : FVec Ideal S128x256 .f32) :
    Host.dotGeneral (F := Ideal) dot_S10000x128_S128x256_S10000x256_1_0_0_1_n_n none A B = Cert.Gcn.mm A B :=
  dot_eq_mm _ dot_S10000x128_S128x256_S10000x256_1_0_0_1_n_n_wf rfl A B

/-- The program's product of a `10000x10000` by a `10000x256` matrix is the specification's. -/
theorem mm_2 (A : FVec Ideal S10000x10000 .f32) (B : FVec Ideal S10000x256 .f32) :
    Host.dotGeneral (F := Ideal) dot_S10000x10000_S10000x256_S10000x256_1_0_0_1_n_n none A B = Cert.Gcn.mm A B :=
  dot_eq_mm _ dot_S10000x10000_S10000x256_S10000x256_1_0_0_1_n_n_wf rfl A B

/-- The program's product of a `10000x256` by a `256x128` matrix is the specification's. -/
theorem mm_3 (A : FVec Ideal S10000x256 .f32) (B : FVec Ideal S256x128 .f32) :
    Host.dotGeneral (F := Ideal) dot_S10000x256_S256x128_S10000x128_1_0_0_1_n_n none A B = Cert.Gcn.mm A B :=
  dot_eq_mm _ dot_S10000x256_S256x128_S10000x128_1_0_0_1_n_n_wf rfl A B

/-- The program's product of a `10000x10000` by a `10000x128` matrix is the specification's. -/
theorem mm_4 (A : FVec Ideal S10000x10000 .f32) (B : FVec Ideal S10000x128 .f32) :
    Host.dotGeneral (F := Ideal) dot_S10000x10000_S10000x128_S10000x128_1_0_0_1_n_n none A B = Cert.Gcn.mm A B :=
  dot_eq_mm _ dot_S10000x10000_S10000x128_S10000x128_1_0_0_1_n_n_wf rfl A B

/-- The program's product of a `10000x128` by a `128x64` matrix is the specification's. -/
theorem mm_5 (A : FVec Ideal S10000x128 .f32) (B : FVec Ideal S128x64 .f32) :
    Host.dotGeneral (F := Ideal) dot_S10000x128_S128x64_S10000x64_1_0_0_1_n_n none A B = Cert.Gcn.mm A B :=
  dot_eq_mm _ dot_S10000x128_S128x64_S10000x64_1_0_0_1_n_n_wf rfl A B

/-- The program's product of a `10000x10000` by a `10000x64` matrix is the specification's. -/
theorem mm_6 (A : FVec Ideal S10000x10000 .f32) (B : FVec Ideal S10000x64 .f32) :
    Host.dotGeneral (F := Ideal) dot_S10000x10000_S10000x64_S10000x64_1_0_0_1_n_n none A B = Cert.Gcn.mm A B :=
  dot_eq_mm _ dot_S10000x10000_S10000x64_S10000x64_1_0_0_1_n_n_wf rfl A B

/-- The program's product of a `10000x64` by a `64x10000` matrix is the specification's. -/
theorem mm_7 (A : FVec Ideal S10000x64 .f32) (B : FVec Ideal S64x10000 .f32) :
    Host.dotGeneral (F := Ideal) dot_S10000x64_S64x10000_S10000x10000_1_0_0_1_n_n none A B = Cert.Gcn.mm A B :=
  dot_eq_mm _ dot_S10000x64_S64x10000_S10000x10000_1_0_0_1_n_n_wf rfl A B

/-- The program's transpose of a `256x128` matrix is the specification's. -/
theorem tr_1 (W : FVec Ideal S256x128 .f32) :
    transpose S128x256 [1, 0] W transposes_S256x128_S128x256_1_0 = Cert.Gcn.tr W :=
  transpose_eq_tr W _

/-- The program's transpose of a `128x256` matrix is the specification's. -/
theorem tr_2 (W : FVec Ideal S128x256 .f32) :
    transpose S256x128 [1, 0] W transposes_S128x256_S256x128_1_0 = Cert.Gcn.tr W :=
  transpose_eq_tr W _

/-- The program's transpose of a `64x128` matrix is the specification's. -/
theorem tr_3 (W : FVec Ideal S64x128 .f32) :
    transpose S128x64 [1, 0] W transposes_S64x128_S128x64_1_0 = Cert.Gcn.tr W :=
  transpose_eq_tr W _

/-- The program's transpose of a `10000x64` matrix is the specification's. -/
theorem tr_4 (W : FVec Ideal S10000x64 .f32) :
    transpose S64x10000 [1, 0] W transposes_S10000x64_S64x10000_1_0 = Cert.Gcn.tr W :=
  transpose_eq_tr W _

/-! ## The rectifier under the flag -/

/-- The program's flag, read at the scalar's one index, is the specification's. -/
theorem flagT_apply (act : IVec S_ 32) (i : S_.Idx) : flagT act i = Cert.Gcn.flag act :=
  (congrArg (flagT act) (ValueIdx.eq_ix0 i)).trans rfl

/-- The program's rectifier under the flag is, at every entry, the specification's gate of that entry. -/
theorem gateT_apply (S : Shape) (h : S_.BroadcastsInDim S (![] : Fin 0 → Fin S.rank)) (act : IVec S_ 32)
    (x : FVec Ideal S .f32) (j : S.Idx) :
    gateT S h (flagT act) x j = Cert.Gcn.gate (Cert.Gcn.flag act) (x j) := by
  show Scalar.select (flagT act _) _ _ = _
  rw [flagT_apply]
  rfl

/-! ## The five stages -/

theorem stage1_eq (act : IVec S_ 32) (X : FVec Ideal S10000x128 .f32) (W1 : FVec Ideal S256x128 .f32) :
    stage1 (flagT act) X W1 = Cert.Gcn.support1 (Cert.Gcn.flag act) X W1 := by
  funext j
  unfold stage1 Cert.Gcn.support1
  rw [gateT_apply, mm_1, tr_1]

theorem stage2_eq (act : IVec S_ 32) (A : FVec Ideal S10000x10000 .f32) (S1 : FVec Ideal S10000x256 .f32) (W2 : FVec Ideal S128x256 .f32) :
    stage2 (flagT act) A S1 W2 = Cert.Gcn.support2 (Cert.Gcn.flag act) A S1 W2 := by
  funext j
  unfold stage2 Cert.Gcn.support2
  rw [gateT_apply, mm_3, mm_2, tr_2]

theorem stage3_eq (A : FVec Ideal S10000x10000 .f32) (S2 : FVec Ideal S10000x128 .f32) (W3 : FVec Ideal S64x128 .f32) :
    stage3 A S2 W3 = Cert.Gcn.support3 A S2 W3 := by
  unfold stage3 Cert.Gcn.support3
  rw [mm_5, mm_4, tr_3]

theorem stage4_eq (A : FVec Ideal S10000x10000 .f32) (S3 : FVec Ideal S10000x64 .f32) : stage4 A S3 = Cert.Gcn.mm A S3 := by
  unfold stage4
  rw [mm_6]

/-- One over one plus the exponential of the negated Gram entry is the logistic function of that entry. -/
theorem stage5_eq (Z : FVec Ideal S10000x64 .f32) : stage5 Z = Cert.Gcn.gram Z := by
  funext j
  show Ideal.div (Ideal.ofBits .f32 0x3F800000#32)
      (Ideal.ofBits .f32 0x3F800000#32
        + Ideal.exp (-(Host.dotGeneral (F := Ideal) dot_S10000x64_S64x10000_S10000x10000_1_0_0_1_n_n none Z
            (transpose S64x10000 [1, 0] Z transposes_S10000x64_S64x10000_1_0) j)))
    = Ideal.logistic (Cert.Gcn.mm Z (Cert.Gcn.tr Z) j)
  rw [Ideal.ofBits_one_f32, mm_7, tr_4]
  rfl

/-! ## The two results -/

theorem embeddingT_eq (X : FVec Ideal S10000x128 .f32) (A : FVec Ideal S10000x10000 .f32) (act : IVec S_ 32)
    (W1 : FVec Ideal S256x128 .f32) (W2 : FVec Ideal S128x256 .f32) (W3 : FVec Ideal S64x128 .f32) :
    embeddingT X A act W1 W2 W3 = Cert.Gcn.embedding X A act W1 W2 W3 := by
  unfold embeddingT Cert.Gcn.embedding
  rw [stage1_eq, stage2_eq, stage3_eq, stage4_eq]

theorem reconstructionT_eq (X : FVec Ideal S10000x128 .f32) (A : FVec Ideal S10000x10000 .f32) (act : IVec S_ 32)
    (W1 : FVec Ideal S256x128 .f32) (W2 : FVec Ideal S128x256 .f32) (W3 : FVec Ideal S64x128 .f32) :
    reconstructionT X A act W1 W2 W3 = Cert.Gcn.reconstruction X A act W1 W2 W3 := by
  unfold reconstructionT Cert.Gcn.reconstruction
  rw [embeddingT_eq, stage5_eq]

/-- On the one device, at the ideal values, from any memory with zero counters: every weakly fair execution of the
    reference's @main terminates with the first result the specification's embedding of the six arguments, the second
    its reconstruction, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
        = Cert.Gcn.embedding (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v21)
        = Cert.Gcn.reconstruction (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => by
      obtain ⟨h13, h21, h0, h1, h2, h3, h4, h5⟩ := h c
      exact ⟨h13.trans (embeddingT_eq _ _ _ _ _ _), h21.trans (reconstructionT_eq _ _ _ _ _ _), h0, h1, h2, h3, h4, h5⟩)
    (RefRun.run m ρ)

end Cert.ReferenceIdeal.RefValue

end
-- ==== Proof.lean ====
/-
  A three-layer graph-convolution encoder with a logistic Gram decoder, as a five-region kernel against its plain
  reference: both compute, from the features X, the adjacency matrix A, the integer flag and the weights W₁, W₂, W₃,

      S₁ = gate (X · W₁ᵀ),   S₂ = gate ((A · S₁) · W₂ᵀ),   S₃ = (A · S₂) · W₃ᵀ,   Z = A · S₃,   H = logistic (Z · Zᵀ)

  and return (Z, H); `gate` is the leaky rectifier when the flag is not zero and the identity otherwise (Proof/Spec.lean).
  The kernel forms every product block of rows by block of rows, with the operands passed through a narrower float format
  on the way — the identity on the extended reals —, and a product into a zero accumulator is, entry by entry, the same
  sum over the contracted coordinate as the reference's; the kernel's logistic is the reference's 1 / (1 + e⁻ᵍ). So the
  two programs are the same expression stage by stage, and no step of the argument needs the inputs to be finite.

  The kernel's side: each region's output array after the region, as a function of the arrays the region was given
  (Proof/K0.lean … K4.lean), the run with every buffer named at the last boundary (Proof/KRun.lean), and the chain of
  boundaries read back to the arguments (Proof/KFold.lean). The reference's side: its run, operation by operation
  (Proof/RefRun.lean), and its two results as the specification's (Proof/RefValue.lean). The idealization rewrote no
  operation of the kernel, so there is nothing to preserve beyond the program's own text.
-/
import proofs.«153249_g49400713838637_fold_wed_c4_295_9_alg».proof.Defs
import proofs.«153249_g49400713838637_fold_wed_c4_295_9_alg».proof.Proof.Gen.Kernel
import proofs.«153249_g49400713838637_fold_wed_c4_295_9_alg».proof.Proof.Gen.Kernel.Frame
import proofs.«153249_g49400713838637_fold_wed_c4_295_9_alg».proof.Proof.Gen.KernelIdeal
import proofs.«153249_g49400713838637_fold_wed_c4_295_9_alg».proof.Proof.Gen.KernelIdeal.Frame
import proofs.«153249_g49400713838637_fold_wed_c4_295_9_alg».proof.Proof.Gen.ReferenceIdeal
import proofs.«153249_g49400713838637_fold_wed_c4_295_9_alg».proof.Proof.Gen.Pre_finite_inputs
import proofs.«153249_g49400713838637_fold_wed_c4_295_9_alg».proof.Proof.KFold
import proofs.«153249_g49400713838637_fold_wed_c4_295_9_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The idealization rewrote nothing. -/
theorem preserves : Cert.preserves_Kernel_KernelIdeal := trivial

/-- From memories that agree on the arguments both programs end with the first result at the specification's embedding
    and the second at its reconstruction of those arguments. -/
theorem algebraic : Cert.algebraic_KernelIdeal_ReferenceIdeal := by
  intro m ρ m' ρ' _ hagree
  refine ⟨fun c => Cert.Gcn.embedding (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
    fun c => Cert.Gcn.reconstruction (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun r h c => ?_) (Cert.ReferenceIdeal.RefValue.run m' ρ')
  obtain ⟨h0, h1, h2, h3, h4, h5⟩ := hagree c
  refine ⟨(h c).1.trans ?_, (h c).2.1.trans ?_, (h c).2.2⟩
  · rw [h0, h1, h2, h3, h4, h5]
  · rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
